-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3000x481x2 : Shape := ⟨4, ![8, 3000, 481, 2]⟩
abbrev S8x3000x96x10 : Shape := ⟨4, ![8, 3000, 96, 10]⟩
abbrev S_ : Shape := ⟨0, ![]⟩

class Facts : Prop where
  bcast_S_S8x3000x481x2 : S_.BroadcastsInDim S8x3000x481x2 (![] : Fin 0 → Fin S8x3000x481x2.rank)
  reducesTo_S8x3000x481x2_S_d0_1_2_3 : S8x3000x481x2.ReducesTo [0, 1, 2, 3] S_
  h_S_ : 0 < S_.numel
  bcast_S_S8x3000x96x10 : S_.BroadcastsInDim S8x3000x96x10 (![] : Fin 0 → Fin S8x3000x96x10.rank)
  reducesTo_S8x3000x96x10_S_d0_1_2_3 : S8x3000x96x10.ReducesTo [0, 1, 2, 3] S_

variable [Facts]

def fn {F : FTy → Type} [FloatOps F] (main_arg0 : FVec F S8x3000x481x2 .f32) (main_arg1 : FVec F S8x3000x96x10 .f32) : IVec S_ 1 :=
  let main_v0 : FVec F S8x3000x481x2 .f32 := Host.absf main_arg0
  let main_cst : FVec F S_ .f32 := constant S_ .f32 0x7F800000#32
  let main_v1 : FVec F S8x3000x481x2 .f32 := broadcastInDim S8x3000x481x2 ![] bcast_S_S8x3000x481x2 main_cst
  let main_v2 : IVec S8x3000x481x2 1 := cmpf .olt main_v0 main_v1
  let main_c : IVec S_ 1 := constantI S_ 1 1#1
  let main_v3 : IVec S_ 1 := (fun x v => Host.reduce IntOp.andi x v reducesTo_S8x3000x481x2_S_d0_1_2_3 h_S_) main_v2 main_c
  let main_v4 : FVec F S8x3000x96x10 .f32 := Host.absf main_arg1
  let main_cst_0 : FVec F S_ .f32 := constant S_ .f32 0x7F800000#32
  let main_v5 : FVec F S8x3000x96x10 .f32 := broadcastInDim S8x3000x96x10 ![] bcast_S_S8x3000x96x10 main_cst_0
  let main_v6 : IVec S8x3000x96x10 1 := cmpf .olt main_v4 main_v5
  let main_c_1 : IVec S_ 1 := constantI S_ 1 1#1
  let main_v7 : IVec S_ 1 := (fun x v => Host.reduce IntOp.andi x v reducesTo_S8x3000x96x10_S_d0_1_2_3 h_S_) main_v6 main_c_1
  let main_v8 : IVec S_ 1 := andi main_v3 main_v7
  main_v8
-- ==== Kernel.lean ====
abbrev S8x3000x481x2 : Shape := ⟨4, ![8, 3000, 481, 2]⟩
abbrev S8x3000x96x10 : Shape := ⟨4, ![8, 3000, 96, 10]⟩
abbrev S8x3000x481x1 : Shape := ⟨4, ![8, 3000, 481, 1]⟩
abbrev S8x3000x481 : Shape := ⟨3, ![8, 3000, 481]⟩
abbrev S8x3000x10x96 : Shape := ⟨4, ![8, 3000, 10, 96]⟩
abbrev S8x3000x960 : Shape := ⟨3, ![8, 3000, 960]⟩
abbrev S1x200x481 : Shape := ⟨3, ![1, 200, 481]⟩
abbrev S1x200x960 : Shape := ⟨3, ![1, 200, 960]⟩
abbrev S4x96 : Shape := ⟨2, ![4, 96]⟩
abbrev S200x481 : Shape := ⟨2, ![200, 481]⟩
abbrev S200x960 : Shape := ⟨2, ![200, 960]⟩
abbrev S200x96 : Shape := ⟨2, ![200, 96]⟩
abbrev S204x96 : Shape := ⟨2, ![204, 96]⟩
abbrev S200x385 : Shape := ⟨2, ![200, 385]⟩

abbrev nBuf : Space → Nat
  | .hbm => 13
  | .vmem => 12
  | .smem => 0
  | _ => 0

abbrev bufTy : (tb : Table) → Fin (tcTables nBuf tb) → BufTy
  | .hbm, ⟨0, _⟩ => ⟨S8x3000x481x2, .f32⟩
  | .hbm, ⟨1, _⟩ => ⟨S8x3000x96x10, .f32⟩
  | .hbm, ⟨2, _⟩ => ⟨S8x3000x481x1, .f32⟩
  | .hbm, ⟨3, _⟩ => ⟨S8x3000x481, .f32⟩
  | .hbm, ⟨4, _⟩ => ⟨S8x3000x481x1, .f32⟩
  | .hbm, ⟨5, _⟩ => ⟨S8x3000x481, .f32⟩
  | .hbm, ⟨6, _⟩ => ⟨S8x3000x10x96, .f32⟩
  | .hbm, ⟨7, _⟩ => ⟨S8x3000x960, .f32⟩
  | .hbm, ⟨8, _⟩ => ⟨S8x3000x481, .f32⟩
  | .hbm, ⟨9, _⟩ => ⟨S8x3000x481, .f32⟩
  | .hbm, ⟨10, _⟩ => ⟨S8x3000x481x1, .f32⟩
  | .hbm, ⟨11, _⟩ => ⟨S8x3000x481x1, .f32⟩
  | .hbm, ⟨12, _⟩ => ⟨S8x3000x481x2, .f32⟩
  | .local _ .vmem, ⟨0, _⟩ => ⟨S1x200x481, .f32⟩
  | .local _ .vmem, ⟨1, _⟩ => ⟨S1x200x481, .f32⟩
  | .local _ .vmem, ⟨2, _⟩ => ⟨S1x200x481, .f32⟩
  | .local _ .vmem, ⟨3, _⟩ => ⟨S1x200x481, .f32⟩
  | .local _ .vmem, ⟨4, _⟩ => ⟨S1x200x960, .f32⟩
  | .local _ .vmem, ⟨5, _⟩ => ⟨S1x200x960, .f32⟩
  | .local _ .vmem, ⟨6, _⟩ => ⟨S1x200x481, .f32⟩
  | .local _ .vmem, ⟨7, _⟩ => ⟨S1x200x481, .f32⟩
  | .local _ .vmem, ⟨8, _⟩ => ⟨S1x200x481, .f32⟩
  | .local _ .vmem, ⟨9, _⟩ => ⟨S1x200x481, .f32⟩
  | .local _ .vmem, ⟨10, _⟩ => ⟨S4x96, .f32⟩
  | .local _ .vmem, ⟨11, _⟩ => ⟨S4x96, .f32⟩
  | _, _ => ⟨S8x3000x481x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 15], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x200x481 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x200x481 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x200x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x200x481 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x200x481 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S8x3000x481x2_S8x3000x481x1_0_0_0_0 : S8x3000x481x2.Slices ![0, 0, 0, 0] S8x3000x481x1
  shapeCasts_S8x3000x481x1_S8x3000x481 : S8x3000x481x1.ShapeCasts S8x3000x481
  slices_S8x3000x481x2_S8x3000x481x1_0_0_0_1 : S8x3000x481x2.Slices ![0, 0, 0, 1] S8x3000x481x1
  transposes_S8x3000x96x10_S8x3000x10x96_0_1_3_2 : S8x3000x96x10.Transposes [0, 1, 3, 2] S8x3000x10x96
  shapeCasts_S8x3000x10x96_S8x3000x960 : S8x3000x10x96.ShapeCasts S8x3000x960
  inb_S4x96_S4x96_0_0 : ∀ a, (![0, 0] : Fin 2 → Nat) a + S4x96.size a ≤ S4x96.size a
  h_S4x96 : 0 < S4x96.numel
  shapeCasts_S4x96_S4x96 : S4x96.ShapeCasts S4x96
  inb_S1x200x481_S1x200x481_0_0_0 : ∀ a, (![0, 0, 0] : Fin 3 → Nat) a + S1x200x481.size a ≤ S1x200x481.size a
  h_S1x200x481 : 0 < S1x200x481.numel
  shapeCasts_S1x200x481_S200x481 : S1x200x481.ShapeCasts S200x481
  inb_S1x200x960_S1x200x960_0_0_0 : ∀ a, (![0, 0, 0] : Fin 3 → Nat) a + S1x200x960.size a ≤ S1x200x960.size a
  h_S1x200x960 : 0 < S1x200x960.numel
  shapeCasts_S1x200x960_S200x960 : S1x200x960.ShapeCasts S200x960
  slices_S200x481_o0_0_S200x96 : S200x481.Slices ![0, 0] S200x96
  concatenates_S4x96_S200x96_S204x96_d0 : Shape.Concatenates [S4x96, S200x96] S204x96 0
  slices_S204x96_o0_0_S200x96 : S204x96.Slices ![0, 0] S200x96
  slices_S200x960_o0_0_S200x96 : S200x960.Slices ![0, 0] S200x96
  slices_S200x960_o0_480_S200x96 : S200x960.Slices ![0, 480] S200x96
  slices_S204x96_o1_0_S200x96 : S204x96.Slices ![1, 0] S200x96
  slices_S200x960_o0_96_S200x96 : S200x960.Slices ![0, 96] S200x96
  slices_S200x960_o0_576_S200x96 : S200x960.Slices ![0, 576] S200x96
  slices_S204x96_o2_0_S200x96 : S204x96.Slices ![2, 0] S200x96
  slices_S200x960_o0_192_S200x96 : S200x960.Slices ![0, 192] S200x96
  slices_S200x960_o0_672_S200x96 : S200x960.Slices ![0, 672] S200x96
  slices_S204x96_o3_0_S200x96 : S204x96.Slices ![3, 0] S200x96
  slices_S200x960_o0_288_S200x96 : S200x960.Slices ![0, 288] S200x96
  slices_S200x960_o0_768_S200x96 : S200x960.Slices ![0, 768] S200x96
  slices_S204x96_o4_0_S200x96 : S204x96.Slices ![4, 0] S200x96
  slices_S200x960_o0_384_S200x96 : S200x960.Slices ![0, 384] S200x96
  slices_S200x960_o0_864_S200x96 : S200x960.Slices ![0, 864] S200x96
  slices_S200x96_o196_0_S4x96 : S200x96.Slices ![196, 0] S4x96
  slices_S200x481_o0_96_S200x385 : S200x481.Slices ![0, 96] S200x385
  concatenates_S200x96_S200x385_S200x481_d1 : Shape.Concatenates [S200x96, S200x385] S200x481 1
  shapeCasts_S200x481_S1x200x481 : S200x481.ShapeCasts S1x200x481
  bcast_S8x3000x481_S8x3000x481x1_0_1_2 : S8x3000x481.BroadcastsInDim S8x3000x481x1 (![0, 1, 2] : Fin 3 → Fin S8x3000x481x1.rank)
  concatenates_S8x3000x481x1_S8x3000x481x1_S8x3000x481x2_d3 : Shape.Concatenates [S8x3000x481x1, S8x3000x481x1] S8x3000x481x2 3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x481.size a ≤ S8x3000x481.size a
  hwx0_0 : ∀ i : grid0.Coords, EltTy.bits .f32 = 32 ∨ (Rect.block (s := S8x3000x481) S1x200x481.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x481.size a ≤ S8x3000x481.size a
  hwx0_1 : ∀ i : grid0.Coords, EltTy.bits .f32 = 32 ∨ (Rect.block (s := S8x3000x481) S1x200x481.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x960.size a ≤ S8x3000x960.size a
  hwx0_2 : ∀ i : grid0.Coords, EltTy.bits .f32 = 32 ∨ (Rect.block (s := S8x3000x960) S1x200x960.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x200x481.size a ≤ S8x3000x481.size a
  hwx0_3 : ∀ i : grid0.Coords, EltTy.bits .f32 = 32 ∨ (Rect.block (s := S8x3000x481) S1x200x481.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x200x481.size a ≤ S8x3000x481.size a
  hwx0_4 : ∀ i : grid0.Coords, EltTy.bits .f32 = 32 ∨ (Rect.block (s := S8x3000x481) S1x200x481.size (cc0_transform_4 i) (hinb0_4 i)).WholeWords (EltTy.packing .f32)

variable [Facts₀]

abbrev win0_0 : Pipeline.Window sig grid0 :=
  Pipeline.Window.ofSpec (Memref.whole main_v1) S1x200x481.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x200x481.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x200x960.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x200x481.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x200x481.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x3000x481x2 : Shape := ⟨4, ![8, 3000, 481, 2]⟩
abbrev S8x3000x96x10 : Shape := ⟨4, ![8, 3000, 96, 10]⟩
abbrev S8x3000x96x1 : Shape := ⟨4, ![8, 3000, 96, 1]⟩
abbrev S8x3000x96 : Shape := ⟨3, ![8, 3000, 96]⟩
abbrev S_ : Shape := ⟨0, ![]⟩
abbrev S8x3004x96 : Shape := ⟨3, ![8, 3004, 96]⟩
abbrev S8x3000x96x5 : Shape := ⟨4, ![8, 3000, 96, 5]⟩
abbrev S1 : Shape := ⟨1, ![1]⟩
abbrev S2 : Shape := ⟨1, ![2]⟩

abbrev nBuf : Space → Nat
  | .hbm => 58
  | .vmem => 0
  | .smem => 0
  | _ => 0

abbrev bufTy : (tb : Table) → Fin (tcTables nBuf tb) → BufTy
  | .hbm, ⟨0, _⟩ => ⟨S8x3000x481x2, .f32⟩
  | .hbm, ⟨1, _⟩ => ⟨S8x3000x96x10, .f32⟩
  | .hbm, ⟨2, _⟩ => ⟨S8x3000x96x1, .f32⟩
  | .hbm, ⟨3, _⟩ => ⟨S8x3000x96, .f32⟩
  | .hbm, ⟨4, _⟩ => ⟨S8x3000x96x1, .f32⟩
  | .hbm, ⟨5, _⟩ => ⟨S8x3000x96, .f32⟩
  | .hbm, ⟨6, _⟩ => ⟨S_, .i32⟩
  | .hbm, ⟨7, _⟩ => ⟨S_, .f32⟩
  | .hbm, ⟨8, _⟩ => ⟨S8x3004x96, .f32⟩
  | .hbm, ⟨9, _⟩ => ⟨S_, .i32⟩
  | .hbm, ⟨10, _⟩ => ⟨S_, .f32⟩
  | .hbm, ⟨11, _⟩ => ⟨S8x3004x96, .f32⟩
  | .hbm, ⟨12, _⟩ => ⟨S8x3000x96, .f32⟩
  | .hbm, ⟨13, _⟩ => ⟨S8x3000x96, .f32⟩
  | .hbm, ⟨14, _⟩ => ⟨S8x3000x96, .f32⟩
  | .hbm, ⟨15, _⟩ => ⟨S8x3000x96, .f32⟩
  | .hbm, ⟨16, _⟩ => ⟨S8x3000x96, .f32⟩
  | .hbm, ⟨17, _⟩ => ⟨S8x3000x96x1, .f32⟩
  | .hbm, ⟨18, _⟩ => ⟨S8x3000x96x1, .f32⟩
  | .hbm, ⟨19, _⟩ => ⟨S8x3000x96x1, .f32⟩
  | .hbm, ⟨20, _⟩ => ⟨S8x3000x96x1, .f32⟩
  | .hbm, ⟨21, _⟩ => ⟨S8x3000x96x1, .f32⟩
  | .hbm, ⟨22, _⟩ => ⟨S8x3000x96x5, .f32⟩
  | .hbm, ⟨23, _⟩ => ⟨S8x3000x96, .f32⟩
  | .hbm, ⟨24, _⟩ => ⟨S8x3000x96, .f32⟩
  | .hbm, ⟨25, _⟩ => ⟨S8x3000x96, .f32⟩
  | .hbm, ⟨26, _⟩ => ⟨S8x3000x96, .f32⟩
  | .hbm, ⟨27, _⟩ => ⟨S8x3000x96, .f32⟩
  | .hbm, ⟨28, _⟩ => ⟨S8x3000x96x1, .f32⟩
  | .hbm, ⟨29, _⟩ => ⟨S8x3000x96x1, .f32⟩
  | .hbm, ⟨30, _⟩ => ⟨S8x3000x96x1, .f32⟩
  | .hbm, ⟨31, _⟩ => ⟨S8x3000x96x1, .f32⟩
  | .hbm, ⟨32, _⟩ => ⟨S8x3000x96x1, .f32⟩
  | .hbm, ⟨33, _⟩ => ⟨S8x3000x96x5, .f32⟩
  | .hbm, ⟨34, _⟩ => ⟨S8x3000x96x5, .f32⟩
  | .hbm, ⟨35, _⟩ => ⟨S8x3000x96x5, .f32⟩
  | .hbm, ⟨36, _⟩ => ⟨S8x3000x96x5, .f32⟩
  | .hbm, ⟨37, _⟩ => ⟨S8x3000x96x5, .f32⟩
  | .hbm, ⟨38, _⟩ => ⟨S8x3000x96x5, .f32⟩
  | .hbm, ⟨39, _⟩ => ⟨S_, .f32⟩
  | .hbm, ⟨40, _⟩ => ⟨S8x3000x96, .f32⟩
  | .hbm, ⟨41, _⟩ => ⟨S8x3000x96x5, .f32⟩
  | .hbm, ⟨42, _⟩ => ⟨S8x3000x96x5, .f32⟩
  | .hbm, ⟨43, _⟩ => ⟨S8x3000x96x5, .f32⟩
  | .hbm, ⟨44, _⟩ => ⟨S_, .f32⟩
  | .hbm, ⟨45, _⟩ => ⟨S8x3000x96, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S8x3000x481x2, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S8x3000x481x2, .f32⟩
  | _, _ => ⟨S8x3000x481x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_c_2 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_4 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]

class Facts₀ : Prop where
  slices_S8x3000x481x2_S8x3000x96x1_0_0_0_0 : S8x3000x481x2.Slices ![0, 0, 0, 0] S8x3000x96x1
  shapeCasts_S8x3000x96x1_S8x3000x96 : S8x3000x96x1.ShapeCasts S8x3000x96
  slices_S8x3000x481x2_S8x3000x96x1_0_0_0_1 : S8x3000x481x2.Slices ![0, 0, 0, 1] S8x3000x96x1
  pads_S8x3000x96_S8x3004x96_000_400_000 : S8x3000x96.Pads (![0, 4, 0] : Fin 3 → Nat) ![0, 0, 0] ![0, 0, 0] S8x3004x96
  h_S_ : 0 < S_.numel
  slices_S8x3004x96_S8x3000x96_0_0_0 : S8x3004x96.Slices ![0, 0, 0] S8x3000x96
  slices_S8x3004x96_S8x3000x96_0_1_0 : S8x3004x96.Slices ![0, 1, 0] S8x3000x96
  slices_S8x3004x96_S8x3000x96_0_2_0 : S8x3004x96.Slices ![0, 2, 0] S8x3000x96
  slices_S8x3004x96_S8x3000x96_0_3_0 : S8x3004x96.Slices ![0, 3, 0] S8x3000x96
  slices_S8x3004x96_S8x3000x96_0_4_0 : S8x3004x96.Slices ![0, 4, 0] S8x3000x96
  bcast_S8x3000x96_S8x3000x96x1_0_1_2 : S8x3000x96.BroadcastsInDim S8x3000x96x1 (![0, 1, 2] : Fin 3 → Fin S8x3000x96x1.rank)
  concatenates_S8x3000x96x1_S8x3000x96x1_S8x3000x96x1_S8x3000x96x1_S8x3000x96x1_S8x3000x96x5_d3 : Shape.Concatenates [S8x3000x96x1, S8x3000x96x1, S8x3000x96x1, S8x3000x96x1, S8x3000x96x1] S8x3000x96x5 3
  slices_S8x3000x96x10_S8x3000x96x5_0_0_0_0 : S8x3000x96x10.Slices ![0, 0, 0, 0] S8x3000x96x5
  slices_S8x3000x96x10_S8x3000x96x5_0_0_0_5 : S8x3000x96x10.Slices ![0, 0, 0, 5] S8x3000x96x5
  reducesTo_S8x3000x96x5_S8x3000x96_d3 : S8x3000x96x5.ReducesTo [3] S8x3000x96
  bcast_S_S1 : S_.BroadcastsInDim S1 (![] : Fin 0 → Fin S1.rank)
  concatenates_S1_S1_S2_d0 : Shape.Concatenates [S1, S1] S2 0
  scatter_S8x3000x481x2_S2_S8x3000x96_012_3_23_0_wf : ScatterDims.WF S8x3000x481x2 S2 S8x3000x96 [0, 1, 2] [3] [2, 3] 0

variable [Facts₀]

def scatter_S8x3000x481x2_S2_S8x3000x96_012_3_23_0 : ScatterDims S8x3000x481x2 S2 S8x3000x96 where
  updateWindowDims := [0, 1, 2]
  insertedWindowDims := [3]
  scatterDimsToOperandDims := [2, 3]
  indexVectorDim := 0
  wf := scatter_S8x3000x481x2_S2_S8x3000x96_012_3_23_0_wf

class Facts : Prop extends Facts₀ where

variable [Facts]
-- ==== Proof.LibScatterSet.lean ====
/-
  A host scatter whose body keeps the update (`x.at[...].set(v)`), read at an index.

  The scatter is a left fold over the update indices in row-major order; each step overwrites the operand
  at the position the update index lands on. When every update index lands inside the operand, at `g j`,
  and `g` is injective, no position is written twice: the result holds `upd j` at `g j` and the operand
  everywhere else.
-/
import Idealize.ShloMosaic.PureOps.ShapeOps

noncomputable section

namespace ScatterSet

open Idealize.ShloMosaic

variable {α : Type} {s u : Shape}

/-- One step of the fold: position `g j` takes the update at `j`, where `j` is the `n`-th update index. -/
def step (g : u.Idx → s.Idx) (upd : u.Idx → α) (r : s.Idx → α) (n : Fin u.numel) : s.Idx → α :=
  fun i' => if i' = g (u.rowMajor.symm n) then upd (u.rowMajor.symm n) else r i'

/-- A position no listed update lands on keeps its value through the fold. -/
theorem foldl_step_of_not_mem (g : u.Idx → s.Idx) (upd : u.Idx → α) (l : List (Fin u.numel)) (r : s.Idx → α)
    (i : s.Idx) (h : ∀ n ∈ l, g (u.rowMajor.symm n) ≠ i) : l.foldl (step g upd) r i = r i := by
  induction l generalizing r with
  | nil => rfl
  | cons a t ih =>
    rw [List.foldl_cons, ih _ (fun n hn => h n (List.mem_cons_of_mem _ hn))]
    unfold step
    exact if_neg (fun e => h a (List.mem_cons_self ..) e.symm)

/-- With `g` injective and the list free of repetitions, the position a listed update lands on ends holding it:
    no later step lands there again. -/
theorem foldl_step_of_mem (g : u.Idx → s.Idx) (hg : Function.Injective g) (upd : u.Idx → α)
    (l : List (Fin u.numel)) (hl : l.Nodup) (r : s.Idx → α) (n : Fin u.numel) (hn : n ∈ l) :
    l.foldl (step g upd) r (g (u.rowMajor.symm n)) = upd (u.rowMajor.symm n) := by
  induction l generalizing r with
  | nil => exact absurd hn (List.not_mem_nil)
  | cons a t ih =>
    rw [List.foldl_cons]
    rcases List.mem_cons.1 hn with hna | hnt
    · subst hna
      have hnt : n ∉ t := (List.nodup_cons.1 hl).1
      have key : ∀ n' ∈ t, g (u.rowMajor.symm n') ≠ g (u.rowMajor.symm n) := fun n' hn' e =>
        hnt (u.rowMajor.symm.injective (hg e) ▸ hn')
      rw [foldl_step_of_not_mem g upd t _ _ key]
      unfold step
      exact if_pos rfl
    · exact ih (List.nodup_cons.1 hl).2 _ hnt

variable {si : Shape} {w : Nat}

/-- The scatter is the fold of `step` once every update index is known to land at `g j`. -/
theorem scatter_eq_foldl (d : ScatterDims s si u) (x : s.Idx → α) (idx : IVec si w) (upd : u.Idx → α)
    (g : u.Idx → s.Idx) (hres : ∀ j, d.resultIdx? j idx = some (g j)) :
    Host.scatter d (fun _ b => b) x idx upd = (List.finRange u.numel).foldl (step g upd) x := by
  unfold Host.scatter
  congr 1
  funext r n
  rw [hres]
  rfl

/-- At the position update index `j` lands on, the result is the update at `j`. -/
theorem scatter_apply_mem (d : ScatterDims s si u) (x : s.Idx → α) (idx : IVec si w) (upd : u.Idx → α)
    (g : u.Idx → s.Idx) (hres : ∀ j, d.resultIdx? j idx = some (g j)) (hg : Function.Injective g) (j : u.Idx) :
    Host.scatter d (fun _ b => b) x idx upd (g j) = upd j := by
  rw [scatter_eq_foldl d x idx upd g hres]
  have h := foldl_step_of_mem g hg upd (List.finRange u.numel) (List.nodup_finRange _) x (u.rowMajor j)
    (List.mem_finRange _)
  rwa [Equiv.symm_apply_apply] at h

/-- At a position no update index lands on, the result is the operand. -/
theorem scatter_apply_not_mem (d : ScatterDims s si u) (x : s.Idx → α) (idx : IVec si w) (upd : u.Idx → α)
    (g : u.Idx → s.Idx) (hres : ∀ j, d.resultIdx? j idx = some (g j)) (i : s.Idx) (hi : ∀ j, g j ≠ i) :
    Host.scatter d (fun _ b => b) x idx upd i = x i := by
  rw [scatter_eq_foldl d x idx upd g hres]
  exact foldl_step_of_not_mem g upd _ x i (fun n _ => hi _)

end ScatterSet

end
-- ==== Proof.RefScatter.lean ====
/-
  The reference's last two operations: the filtered real parts written over plane 0 of the signal's first 96
  bins, then the filtered imaginary parts over plane 1, each by a scatter at ONE index pair — `(0, 0)` and
  `(0, 1)`, the start on the bin axis and on the plane axis.

  The update at `(b, τ, f)` lands at `(b, τ, f, p)` for the pair `(0, p)`; that map is injective, so the result
  holds the update there and the operand elsewhere.
-/
import proofs.«150580_j36275293782100_2_alg».proof.Proof.Gen.ReferenceIdeal.Read
import proofs.«150580_j36275293782100_2_alg».proof.Proof.LibScatterSet
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The scatters' dimension numbers. -/
abbrev dims := scatter_S8x3000x481x2_S2_S8x3000x96_012_3_23_0

/-- Component `c` of the start index is read at position `c` of the index pair, whatever the update index. -/
theorem siIdx_eq (j : S8x3000x96.Idx) (c : Fin 2) : dims.siIdx j c = ix1 c := by
  funext b
  match b with
  | ⟨0, _⟩ => exact Fin.ext (by simp [ScatterDims.siIdx, dims, scatter_S8x3000x481x2_S2_S8x3000x96_012_3_23_0])

/-- The window starts at the pair's first entry on the bin axis, at its second on the plane axis, at 0 elsewhere. -/
theorem start_eq (j : S8x3000x96.Idx) (idx : IVec S2 32) (a : Fin 4) :
    dims.start j idx a = if a.val = 2 then (idx (ix1 0)).toInt else if a.val = 3 then (idx (ix1 1)).toInt else 0 := by
  unfold ScatterDims.start
  match a with
  | ⟨0, _⟩ => simp [dims, scatter_S8x3000x481x2_S2_S8x3000x96_012_3_23_0]
  | ⟨1, _⟩ => simp [dims, scatter_S8x3000x481x2_S2_S8x3000x96_012_3_23_0]
  | ⟨2, _⟩ =>
    simp [dims, scatter_S8x3000x481x2_S2_S8x3000x96_012_3_23_0]
    exact congrArg (fun q => (idx q).toInt) (siIdx_eq j 0)
  | ⟨3, _⟩ =>
    simp [dims, scatter_S8x3000x481x2_S2_S8x3000x96_012_3_23_0]
    exact congrArg (fun q => (idx q).toInt) (siIdx_eq j 1)

/-- Inside the window the update's three coordinates go to the first three axes; the plane axis is inserted. -/
theorem window_eq (j : S8x3000x96.Idx) (a : Fin 4) :
    dims.window j a = if h : a.val < 3 then (j ⟨a.val, h⟩).val else 0 := by
  unfold ScatterDims.window
  match a with
  | ⟨0, _⟩ =>
    simp [dims, scatter_S8x3000x481x2_S2_S8x3000x96_012_3_23_0, ScatterDims.sKept, Shape.kept]
    exact congrArg (fun q => (j q).val) (by decide +revert)
  | ⟨1, _⟩ =>
    simp [dims, scatter_S8x3000x481x2_S2_S8x3000x96_012_3_23_0, ScatterDims.sKept, Shape.kept]
    exact congrArg (fun q => (j q).val) (by decide +revert)
  | ⟨2, _⟩ =>
    simp [dims, scatter_S8x3000x481x2_S2_S8x3000x96_012_3_23_0, ScatterDims.sKept, Shape.kept]
    exact congrArg (fun q => (j q).val) (by decide +revert)
  | ⟨3, _⟩ =>
    simp [dims, scatter_S8x3000x481x2_S2_S8x3000x96_012_3_23_0, ScatterDims.sKept, Shape.kept]

/-- Where the update at `j` lands for the index pair `(0, p)`. -/
def land (p : Fin 2) (j : S8x3000x96.Idx) : S8x3000x481x2.Idx :=
  ix4 (j 0) (j 1) ⟨(j 2).val, by have h96 : (j 2).val < 96 := (j 2).isLt; show (j 2).val < 481; omega⟩ p

theorem land_injective (p : Fin 2) : Function.Injective (land p) := fun j j' h => by
  funext a
  match a with
  | ⟨0, _⟩ => exact congrFun h 0
  | ⟨1, _⟩ => exact congrFun h 1
  | ⟨2, _⟩ =>
    have h2 : (land p j 2).val = (land p j' 2).val := congrArg Fin.val (congrFun h 2)
    exact Fin.ext h2

/-- The update at `j` lands inside the signal, at `land p j`, when the index pair reads `(0, p)`. -/
theorem resultIdx_eq (j : S8x3000x96.Idx) (idx : IVec S2 32) (p : Fin 2) (h0 : idx (ix1 0) = 0#32)
    (h1 : (idx (ix1 1)).toInt = (p.val : Int)) : dims.resultIdx? j idx = some (land p j) := by
  unfold ScatterDims.resultIdx?
  have hs : ∀ a : Fin 4, dims.start j idx a + (dims.window j a : Int) = ((land p j a).val : Int) := by
    intro a
    rw [start_eq, window_eq, h0, h1]
    unfold land
    match a with
    | ⟨0, _⟩ => simp
    | ⟨1, _⟩ => simp
    | ⟨2, _⟩ => simp
    | ⟨3, _⟩ => simp
  rw [dif_pos (fun a => by rw [hs a]; exact ⟨Int.natCast_nonneg _, by exact_mod_cast (land p j a).isLt⟩)]
  congr 1
  funext a
  exact Fin.ext (by simp only [hs a]; simp)

/-! ## The two index pairs -/

theorem pair0_fst : val_main_v40 (F := Ideal) (ix1 0) = 0#32 := by
  unfold val_main_v40
  refine (concatenate_pair_apply_left (t := S2) (s₁ := S1) (s₂ := S1) (0 : Fin 1) _ _ _ (ix1 0) rfl (ix1 0)
    (fun b => match b with | ⟨0, _⟩ => rfl)).trans ?_
  rw [val_main_v38_apply]; rfl

theorem pair0_snd : val_main_v40 (F := Ideal) (ix1 1) = 0#32 := by
  unfold val_main_v40
  refine (concatenate_pair_apply_right (t := S2) (s₁ := S1) (s₂ := S1) (0 : Fin 1) _ _ _ (ix1 1) rfl rfl (ix1 0)
    (fun b hb => match b, hb with | ⟨0, _⟩, hb => absurd rfl hb) rfl).trans ?_
  rw [val_main_v39_apply]; rfl

theorem pair1_fst : val_main_v44 (F := Ideal) (ix1 0) = 0#32 := by
  unfold val_main_v44
  refine (concatenate_pair_apply_left (t := S2) (s₁ := S1) (s₂ := S1) (0 : Fin 1) _ _ _ (ix1 0) rfl (ix1 0)
    (fun b => match b with | ⟨0, _⟩ => rfl)).trans ?_
  rw [val_main_v42_apply]; rfl

theorem pair1_snd : val_main_v44 (F := Ideal) (ix1 1) = 1#32 := by
  unfold val_main_v44
  refine (concatenate_pair_apply_right (t := S2) (s₁ := S1) (s₂ := S1) (0 : Fin 1) _ _ _ (ix1 1) rfl rfl (ix1 0)
    (fun b hb => match b, hb with | ⟨0, _⟩, hb => absurd rfl hb) rfl).trans ?_
  rw [val_main_v43_apply]; rfl

theorem lands0 (j : S8x3000x96.Idx) : dims.resultIdx? j (val_main_v40 (F := Ideal)) = some (land 0 j) :=
  resultIdx_eq j _ 0 pair0_fst (by rw [pair0_snd]; rfl)

theorem lands1 (j : S8x3000x96.Idx) : dims.resultIdx? j (val_main_v44 (F := Ideal)) = some (land 1 j) :=
  resultIdx_eq j _ 1 pair1_fst (by rw [pair1_snd]; rfl)

/-- The reference's result at `(b, τ, g, p)`: below bin 96 the filtered real part (plane 0) or imaginary part
    (plane 1) at `(b, τ, g)`, from bin 96 on the signal. -/
theorem scattered_apply (x0 : (⟨S8x3000x481x2, .f32⟩ : BufTy).Contents (Elt Ideal))
    (x1 : (⟨S8x3000x96x10, .f32⟩ : BufTy).Contents (Elt Ideal)) (b : Fin 8) (τ : Fin 3000) (g : Fin 481) (p : Fin 2) :
    val_main_v45 (F := Ideal) x0 x1 (ix4 b τ g p)
      = if h : g.val < 96 then
          (if p.val = 0 then val_main_v33 (F := Ideal) x0 x1 (ix3 b τ ⟨g.val, h⟩)
           else val_main_v37 (F := Ideal) x0 x1 (ix3 b τ ⟨g.val, h⟩))
        else x0 (ix4 b τ g p) := by
  unfold val_main_v45 val_main_v41
  by_cases h : g.val < 96
  · rw [dif_pos h]
    by_cases hp : p.val = 0
    · rw [if_pos hp]
      obtain rfl : p = 0 := Fin.ext hp
      rw [ScatterSet.scatter_apply_not_mem dims _ _ _ (land 1) lands1 (ix4 b τ g 0)
        (fun j e => by
          have h3 : (land 1 j 3).val = (ix4 b τ g (0 : Fin 2) 3).val := congrArg Fin.val (congrFun e 3)
          exact absurd h3 (by show ¬ ((1 : Fin 2).val = (0 : Fin 2).val); decide))]
      have e : ix4 b τ g (0 : Fin 2) = land 0 (ix3 b τ ⟨g.val, h⟩) := by
        funext a; match a with | ⟨0, _⟩ => rfl | ⟨1, _⟩ => rfl | ⟨2, _⟩ => rfl | ⟨3, _⟩ => rfl
      rw [e]
      exact ScatterSet.scatter_apply_mem dims _ _ _ (land 0) lands0 (land_injective 0) _
    · rw [if_neg hp]
      obtain rfl : p = 1 := Fin.ext (by have := p.isLt; show p.val = 1; omega)
      have e : ix4 b τ g (1 : Fin 2) = land 1 (ix3 b τ ⟨g.val, h⟩) := by
        funext a; match a with | ⟨0, _⟩ => rfl | ⟨1, _⟩ => rfl | ⟨2, _⟩ => rfl | ⟨3, _⟩ => rfl
      rw [e]
      exact ScatterSet.scatter_apply_mem dims _ _ _ (land 1) lands1 (land_injective 1) _
  · rw [dif_neg h]
    have far : ∀ (q : Fin 2) (j : S8x3000x96.Idx), land q j ≠ ix4 b τ g p := fun q j e => by
      have h2 : (j 2).val = g.val := congrArg Fin.val (congrFun e 2)
      have h96 : (j 2).val < 96 := (j 2).isLt
      omega
    rw [ScatterSet.scatter_apply_not_mem dims _ _ _ (land 1) lands1 _ (far 1),
      ScatterSet.scatter_apply_not_mem dims _ _ _ (land 0) lands0 _ (far 0)]

end Cert.ReferenceIdeal.RefValue

end
-- ==== Proof.FirSpec.lean ====
/-
  The causal five-tap complex filter along time, as one function of the two argument arrays.

  The signal is `spec[b, τ, f, p]` (batch, time, frequency bin, real/imaginary plane) and the taps are
  `coef[b, τ, f, c]`: component `c = k` is the real part of tap `k`, component `c = 5 + k` its imaginary
  part. For the first 96 bins the result at time `τ` is the complex dot product over the five taps of the
  signal at times `τ - 4 + k` (zero before time 0) with the taps of time `τ`; the other bins pass through.
-/
import Idealize.ShloMosaic.PureOps.Ideal
import Idealize.ShloMosaic.PureOps.Ideal.Laws
import Idealize.ShloMosaic.Lib.ValueIdx

noncomputable section

open scoped BigOperators

namespace Cert.FirSpec

open Idealize.ShloMosaic Idealize.ShloMosaic.ValueIdx

/-- The signal's shape: batch, time, bin, plane. -/
abbrev SigShape : Shape := ⟨4, ![8, 3000, 481, 2]⟩
/-- The taps' shape: batch, time, filtered bin, component. -/
abbrev TapShape : Shape := ⟨4, ![8, 3000, 96, 10]⟩

/-- The signal `4 - k` steps before time `τ` in plane `p`, zero before time 0. -/
def past (x : SigShape.Idx → EReal) (b : Fin 8) (τ : Fin 3000) (f : Fin 96) (p : Fin 2) (k : Fin 5) : EReal :=
  if h : 4 ≤ τ.val + k.val then x (ix4 b ⟨τ.val + k.val - 4, by omega⟩ ⟨f.val, by omega⟩ p) else 0

/-- The real part of tap `k` at time `τ`. -/
def tapRe (w : TapShape.Idx → EReal) (b : Fin 8) (τ : Fin 3000) (f : Fin 96) (k : Fin 5) : EReal :=
  w (ix4 b τ f ⟨k.val, by omega⟩)

/-- The imaginary part of tap `k` at time `τ`. -/
def tapIm (w : TapShape.Idx → EReal) (b : Fin 8) (τ : Fin 3000) (f : Fin 96) (k : Fin 5) : EReal :=
  w (ix4 b τ f ⟨5 + k.val, by omega⟩)

/-- The real part of the filtered signal: the sum over the taps of `re·re - im·im`. -/
def firRe (x : SigShape.Idx → EReal) (w : TapShape.Idx → EReal) (b : Fin 8) (τ : Fin 3000) (f : Fin 96) : EReal :=
  0 + ∑ k : Fin 5, (past x b τ f 0 k * tapRe w b τ f k - past x b τ f 1 k * tapIm w b τ f k)

/-- The imaginary part of the filtered signal: the sum over the taps of `re·im + im·re`. -/
def firIm (x : SigShape.Idx → EReal) (w : TapShape.Idx → EReal) (b : Fin 8) (τ : Fin 3000) (f : Fin 96) : EReal :=
  0 + ∑ k : Fin 5, (past x b τ f 0 k * tapIm w b τ f k + past x b τ f 1 k * tapRe w b τ f k)

/-- One plane of the result at a batch, time and bin: filtered below bin 96, the signal itself from there on. -/
def plane (x : SigShape.Idx → EReal) (w : TapShape.Idx → EReal) (p : Fin 2) (b : Fin 8) (τ : Fin 3000) (f : Fin 481) :
    EReal :=
  if h : f.val < 96 then (if p.val = 0 then firRe x w b τ ⟨f.val, h⟩ else firIm x w b τ ⟨f.val, h⟩)
  else x (ix4 b τ f p)

/-- The whole result array. -/
def result (x : SigShape.Idx → EReal) (w : TapShape.Idx → EReal) : SigShape.Idx → EReal :=
  fun i => plane x w (i 3) (i 0) (i 1) (i 2)

/-- Adding the taps' terms one after the other, each product added and the next subtracted in turn, is the sum
    over the taps of the differences: addition on the extended reals is associative and commutative, and a
    difference is the sum with the negative. -/
theorem chain_sub (a c : Fin 5 → EReal) :
    0 + a 0 - c 0 + a 1 - c 1 + a 2 - c 2 + a 3 - c 3 + a 4 - c 4 = 0 + ∑ k : Fin 5, (a k - c k) := by
  simp only [Fin.sum_univ_five, sub_eq_add_neg]
  ac_rfl

/-- The same for the sums: the running total over the taps is the sum over the taps of the pairs. -/
theorem chain_add (a c : Fin 5 → EReal) :
    0 + a 0 + c 0 + a 1 + c 1 + a 2 + c 2 + a 3 + c 3 + a 4 + c 4 = 0 + ∑ k : Fin 5, (a k + c k) := by
  simp only [Fin.sum_univ_five]
  ac_rfl

end Cert.FirSpec

end
-- ==== Proof.RefStages.lean ====
/-
  The reference, stage by stage, read at an index: the two planes' first 96 bins padded with four zero rows in
  front along time, the five slices of the padded array shifted by 0 to 4 rows and stacked along a new last axis
  (entry `k` of the stack at time `τ` is the signal at time `τ + k - 4`, zero before time 0), the products with
  the taps' real and imaginary parts, and the two sums over the stacked axis.
-/
import proofs.«150580_j36275293782100_2_alg».proof.Proof.Gen.ReferenceIdeal.Read
import proofs.«150580_j36275293782100_2_alg».proof.Proof.FirSpec
import Idealize.ShloMosaic.Lib.ValueIdx
import Idealize.ShloMosaic.Lib.KernelVsHost

noncomputable section

open scoped BigOperators

namespace Cert.ReferenceIdeal.RefValue

open Cert.ReferenceIdeal Cert.ReferenceIdeal.Gen Cert.ReferenceIdeal.Read Cert.FirSpec
open Idealize.ShloMosaic Idealize.ShloMosaic.ValueIdx

/-- Five arrays with a last axis of extent one, joined along that axis, read at `(b, τ, f, k)`: array `k`. -/
theorem stack5_apply {α : Type} (y0 y1 y2 y3 y4 : S8x3000x96x1.Idx → α)
    (h : Shape.Concatenates ([(⟨S8x3000x96x1, y0⟩ : (s : Shape) × (s.Idx → α)), ⟨S8x3000x96x1, y1⟩, ⟨S8x3000x96x1, y2⟩,
      ⟨S8x3000x96x1, y3⟩, ⟨S8x3000x96x1, y4⟩].map (·.1)) S8x3000x96x5 3)
    (b : Fin 8) (τ : Fin 3000) (f : Fin 96) (k : Fin 5) :
    concatenate S8x3000x96x5 3 [⟨S8x3000x96x1, y0⟩, ⟨S8x3000x96x1, y1⟩, ⟨S8x3000x96x1, y2⟩, ⟨S8x3000x96x1, y3⟩,
      ⟨S8x3000x96x1, y4⟩] h (ix4 b τ f k)
      = (match k with | 0 => y0 | 1 => y1 | 2 => y2 | 3 => y3 | 4 => y4) (ix4 b τ f (0 : Fin 1)) := by
  have hi : ∀ c : Fin S8x3000x96x1.rank, c.cast (rfl : S8x3000x96x1.rank = S8x3000x96x5.rank) ≠ (3 : Fin 4) →
      (ix4 b τ f (0 : Fin 1) c).val = (ix4 b τ f k (c.cast rfl)).val := fun c hc =>
    match c, hc with
    | ⟨0, _⟩, _ => rfl
    | ⟨1, _⟩, _ => rfl
    | ⟨2, _⟩, _ => rfl
    | ⟨3, _⟩, hc => absurd rfl hc
  fin_cases k
  · exact concatenate_apply_piece (3 : Fin 4) _ h (ix4 b τ f (0 : Fin 5)) 0 (by simp) S8x3000x96x1 y0 rfl rfl 0 rfl _ hi rfl
  · exact concatenate_apply_piece (3 : Fin 4) _ h (ix4 b τ f (1 : Fin 5)) 1 (by simp) S8x3000x96x1 y1 rfl rfl 1 rfl _ hi rfl
  · exact concatenate_apply_piece (3 : Fin 4) _ h (ix4 b τ f (2 : Fin 5)) 2 (by simp) S8x3000x96x1 y2 rfl rfl 2 rfl _ hi rfl
  · exact concatenate_apply_piece (3 : Fin 4) _ h (ix4 b τ f (3 : Fin 5)) 3 (by simp) S8x3000x96x1 y3 rfl rfl 3 rfl _ hi rfl
  · exact concatenate_apply_piece (3 : Fin 4) _ h (ix4 b τ f (4 : Fin 5)) 4 (by simp) S8x3000x96x1 y4 rfl rfl 4 rfl _ hi rfl

/-- The padded real plane at row `r`: the signal four rows earlier, zero in the first four rows. -/
theorem padded_re (x0 : (⟨S8x3000x481x2, .f32⟩ : BufTy).Contents (Elt Ideal)) (b : Fin 8) (r : Fin 3004) (f : Fin 96) :
    val_main_v4 (F := Ideal) x0 (ix3 b r f)
      = if h : 4 ≤ r.val then x0 (ix4 b ⟨r.val - 4, by omega⟩ ⟨f.val, by omega⟩ (0 : Fin 2)) else 0 := by
  have hb := b.isLt
  have hr := r.isLt
  have hf := f.isLt
  unfold val_main_v4
  by_cases h : 4 ≤ r.val
  · rw [dif_pos h]
    refine (pad_apply_of_inside ![0, 4, 0] ![0, 0, 0] ![0, 0, 0] _ _ pads_S8x3000x96_S8x3004x96_000_400_000 h_S_
      (ix3 b r f) (ix3 b ⟨r.val - 4, by omega⟩ f) (fun a => match a with
        | ⟨0, _⟩ => by show b.val = 0 + b.val * (0 + 1); omega
        | ⟨1, _⟩ => by show r.val = 4 + (r.val - 4) * (0 + 1); omega
        | ⟨2, _⟩ => by show f.val = 0 + f.val * (0 + 1); omega)).trans ?_
    rw [val_main_v1_apply, val_main_v0_apply]
    refine congrArg x0 (funext fun a => Fin.ext ?_)
    match a with
    | ⟨0, _⟩ => show ((b.val * 3000 + (r.val - 4)) * 96 + f.val) / 288000 = b.val; omega
    | ⟨1, _⟩ => show ((b.val * 3000 + (r.val - 4)) * 96 + f.val) / 96 % 3000 = r.val - 4; omega
    | ⟨2, _⟩ => show ((b.val * 3000 + (r.val - 4)) * 96 + f.val) / 1 % 96 = f.val; omega
    | ⟨3, _⟩ => rfl
  · rw [dif_neg h]
    refine (pad_apply_of_not_inside (s := S8x3000x96) (t := S8x3004x96) ![0, 4, 0] ![0, 0, 0] ![0, 0, 0]
      (val_main_v1 (F := Ideal) x0) (val_main_call0_v0 (F := Ideal)) pads_S8x3000x96_S8x3004x96_000_400_000 h_S_
      (ix3 b r f) (1 : Fin 3) (fun hin => h hin.1)).trans ?_
    show (((0#32 : BitVec 32).toInt : ℝ) : EReal) = 0
    simp

theorem tap0_re (x0 : (⟨S8x3000x481x2, .f32⟩ : BufTy).Contents (Elt Ideal)) (b : Fin 8) (τ : Fin 3000) (f : Fin 96) :
    val_main_v11 (F := Ideal) x0 (ix4 b τ f (0 : Fin 1)) = past x0 b τ f (0 : Fin 2) (0 : Fin 5) := by
  have hτ := τ.isLt
  rw [val_main_v11_apply, val_main_v6_apply]
  have e : idx_main_v6 (idx_main_v11 (ix4 b τ f (0 : Fin 1))) = ix3 b ⟨τ.val + 0, by omega⟩ f :=
    funext fun a => match a with
      | ⟨0, _⟩ => rfl
      | ⟨1, _⟩ => Fin.ext (by show τ.val = τ.val + 0; omega)
      | ⟨2, _⟩ => rfl
  rw [e, padded_re]
  rfl

theorem tap1_re (x0 : (⟨S8x3000x481x2, .f32⟩ : BufTy).Contents (Elt Ideal)) (b : Fin 8) (τ : Fin 3000) (f : Fin 96) :
    val_main_v12 (F := Ideal) x0 (ix4 b τ f (0 : Fin 1)) = past x0 b τ f (0 : Fin 2) (1 : Fin 5) := by
  have hτ := τ.isLt
  rw [val_main_v12_apply, val_main_v7_apply]
  have e : idx_main_v7 (idx_main_v12 (ix4 b τ f (0 : Fin 1))) = ix3 b ⟨τ.val + 1, by omega⟩ f :=
    funext fun a => match a with
      | ⟨0, _⟩ => rfl
      | ⟨1, _⟩ => Fin.ext (by show 1 + τ.val = τ.val + 1; omega)
      | ⟨2, _⟩ => rfl
  rw [e, padded_re]
  rfl

theorem tap2_re (x0 : (⟨S8x3000x481x2, .f32⟩ : BufTy).Contents (Elt Ideal)) (b : Fin 8) (τ : Fin 3000) (f : Fin 96) :
    val_main_v13 (F := Ideal) x0 (ix4 b τ f (0 : Fin 1)) = past x0 b τ f (0 : Fin 2) (2 : Fin 5) := by
  have hτ := τ.isLt
  rw [val_main_v13_apply, val_main_v8_apply]
  have e : idx_main_v8 (idx_main_v13 (ix4 b τ f (0 : Fin 1))) = ix3 b ⟨τ.val + 2, by omega⟩ f :=
    funext fun a => match a with
      | ⟨0, _⟩ => rfl
      | ⟨1, _⟩ => Fin.ext (by show 2 + τ.val = τ.val + 2; omega)
      | ⟨2, _⟩ => rfl
  rw [e, padded_re]
  rfl

theorem tap3_re (x0 : (⟨S8x3000x481x2, .f32⟩ : BufTy).Contents (Elt Ideal)) (b : Fin 8) (τ : Fin 3000) (f : Fin 96) :
    val_main_v14 (F := Ideal) x0 (ix4 b τ f (0 : Fin 1)) = past x0 b τ f (0 : Fin 2) (3 : Fin 5) := by
  have hτ := τ.isLt
  rw [val_main_v14_apply, val_main_v9_apply]
  have e : idx_main_v9 (idx_main_v14 (ix4 b τ f (0 : Fin 1))) = ix3 b ⟨τ.val + 3, by omega⟩ f :=
    funext fun a => match a with
      | ⟨0, _⟩ => rfl
      | ⟨1, _⟩ => Fin.ext (by show 3 + τ.val = τ.val + 3; omega)
      | ⟨2, _⟩ => rfl
  rw [e, padded_re]
  rfl

theorem tap4_re (x0 : (⟨S8x3000x481x2, .f32⟩ : BufTy).Contents (Elt Ideal)) (b : Fin 8) (τ : Fin 3000) (f : Fin 96) :
    val_main_v15 (F := Ideal) x0 (ix4 b τ f (0 : Fin 1)) = past x0 b τ f (0 : Fin 2) (4 : Fin 5) := by
  have hτ := τ.isLt
  rw [val_main_v15_apply, val_main_v10_apply]
  have e : idx_main_v10 (idx_main_v15 (ix4 b τ f (0 : Fin 1))) = ix3 b ⟨τ.val + 4, by omega⟩ f :=
    funext fun a => match a with
      | ⟨0, _⟩ => rfl
      | ⟨1, _⟩ => Fin.ext (by show 4 + τ.val = τ.val + 4; omega)
      | ⟨2, _⟩ => rfl
  rw [e, padded_re]
  rfl

/-- Entry `k` of the real plane's stack at time `τ` is the signal `4 - k` steps earlier, zero before time 0. -/
theorem stack_re (x0 : (⟨S8x3000x481x2, .f32⟩ : BufTy).Contents (Elt Ideal)) (b : Fin 8) (τ : Fin 3000) (f : Fin 96)
    (k : Fin 5) : val_main_v16 (F := Ideal) x0 (ix4 b τ f k) = past x0 b τ f (0 : Fin 2) k := by
  unfold val_main_v16
  rw [stack5_apply]
  fin_cases k
  · exact tap0_re x0 b τ f
  · exact tap1_re x0 b τ f
  · exact tap2_re x0 b τ f
  · exact tap3_re x0 b τ f
  · exact tap4_re x0 b τ f

/-- The padded imaginary plane at row `r`: the signal four rows earlier, zero in the first four rows. -/
theorem padded_im (x0 : (⟨S8x3000x481x2, .f32⟩ : BufTy).Contents (Elt Ideal)) (b : Fin 8) (r : Fin 3004) (f : Fin 96) :
    val_main_v5 (F := Ideal) x0 (ix3 b r f)
      = if h : 4 ≤ r.val then x0 (ix4 b ⟨r.val - 4, by omega⟩ ⟨f.val, by omega⟩ (1 : Fin 2)) else 0 := by
  have hb := b.isLt
  have hr := r.isLt
  have hf := f.isLt
  unfold val_main_v5
  by_cases h : 4 ≤ r.val
  · rw [dif_pos h]
    refine (pad_apply_of_inside ![0, 4, 0] ![0, 0, 0] ![0, 0, 0] _ _ pads_S8x3000x96_S8x3004x96_000_400_000 h_S_
      (ix3 b r f) (ix3 b ⟨r.val - 4, by omega⟩ f) (fun a => match a with
        | ⟨0, _⟩ => by show b.val = 0 + b.val * (0 + 1); omega
        | ⟨1, _⟩ => by show r.val = 4 + (r.val - 4) * (0 + 1); omega
        | ⟨2, _⟩ => by show f.val = 0 + f.val * (0 + 1); omega)).trans ?_
    rw [val_main_v3_apply, val_main_v2_apply]
    refine congrArg x0 (funext fun a => Fin.ext ?_)
    match a with
    | ⟨0, _⟩ => show ((b.val * 3000 + (r.val - 4)) * 96 + f.val) / 288000 = b.val; omega
    | ⟨1, _⟩ => show ((b.val * 3000 + (r.val - 4)) * 96 + f.val) / 96 % 3000 = r.val - 4; omega
    | ⟨2, _⟩ => show ((b.val * 3000 + (r.val - 4)) * 96 + f.val) / 1 % 96 = f.val; omega
    | ⟨3, _⟩ => rfl
  · rw [dif_neg h]
    refine (pad_apply_of_not_inside (s := S8x3000x96) (t := S8x3004x96) ![0, 4, 0] ![0, 0, 0] ![0, 0, 0]
      (val_main_v3 (F := Ideal) x0) (val_main_call1_v0 (F := Ideal)) pads_S8x3000x96_S8x3004x96_000_400_000 h_S_
      (ix3 b r f) (1 : Fin 3) (fun hin => h hin.1)).trans ?_
    show (((0#32 : BitVec 32).toInt : ℝ) : EReal) = 0
    simp

theorem tap0_im (x0 : (⟨S8x3000x481x2, .f32⟩ : BufTy).Contents (Elt Ideal)) (b : Fin 8) (τ : Fin 3000) (f : Fin 96) :
    val_main_v22 (F := Ideal) x0 (ix4 b τ f (0 : Fin 1)) = past x0 b τ f (1 : Fin 2) (0 : Fin 5) := by
  have hτ := τ.isLt
  rw [val_main_v22_apply, val_main_v17_apply]
  have e : idx_main_v17 (idx_main_v22 (ix4 b τ f (0 : Fin 1))) = ix3 b ⟨τ.val + 0, by omega⟩ f :=
    funext fun a => match a with
      | ⟨0, _⟩ => rfl
      | ⟨1, _⟩ => Fin.ext (by show τ.val = τ.val + 0; omega)
      | ⟨2, _⟩ => rfl
  rw [e, padded_im]
  rfl

theorem tap1_im (x0 : (⟨S8x3000x481x2, .f32⟩ : BufTy).Contents (Elt Ideal)) (b : Fin 8) (τ : Fin 3000) (f : Fin 96) :
    val_main_v23 (F := Ideal) x0 (ix4 b τ f (0 : Fin 1)) = past x0 b τ f (1 : Fin 2) (1 : Fin 5) := by
  have hτ := τ.isLt
  rw [val_main_v23_apply, val_main_v18_apply]
  have e : idx_main_v18 (idx_main_v23 (ix4 b τ f (0 : Fin 1))) = ix3 b ⟨τ.val + 1, by omega⟩ f :=
    funext fun a => match a with
      | ⟨0, _⟩ => rfl
      | ⟨1, _⟩ => Fin.ext (by show 1 + τ.val = τ.val + 1; omega)
      | ⟨2, _⟩ => rfl
  rw [e, padded_im]
  rfl

theorem tap2_im (x0 : (⟨S8x3000x481x2, .f32⟩ : BufTy).Contents (Elt Ideal)) (b : Fin 8) (τ : Fin 3000) (f : Fin 96) :
    val_main_v24 (F := Ideal) x0 (ix4 b τ f (0 : Fin 1)) = past x0 b τ f (1 : Fin 2) (2 : Fin 5) := by
  have hτ := τ.isLt
  rw [val_main_v24_apply, val_main_v19_apply]
  have e : idx_main_v19 (idx_main_v24 (ix4 b τ f (0 : Fin 1))) = ix3 b ⟨τ.val + 2, by omega⟩ f :=
    funext fun a => match a with
      | ⟨0, _⟩ => rfl
      | ⟨1, _⟩ => Fin.ext (by show 2 + τ.val = τ.val + 2; omega)
      | ⟨2, _⟩ => rfl
  rw [e, padded_im]
  rfl

theorem tap3_im (x0 : (⟨S8x3000x481x2, .f32⟩ : BufTy).Contents (Elt Ideal)) (b : Fin 8) (τ : Fin 3000) (f : Fin 96) :
    val_main_v25 (F := Ideal) x0 (ix4 b τ f (0 : Fin 1)) = past x0 b τ f (1 : Fin 2) (3 : Fin 5) := by
  have hτ := τ.isLt
  rw [val_main_v25_apply, val_main_v20_apply]
  have e : idx_main_v20 (idx_main_v25 (ix4 b τ f (0 : Fin 1))) = ix3 b ⟨τ.val + 3, by omega⟩ f :=
    funext fun a => match a with
      | ⟨0, _⟩ => rfl
      | ⟨1, _⟩ => Fin.ext (by show 3 + τ.val = τ.val + 3; omega)
      | ⟨2, _⟩ => rfl
  rw [e, padded_im]
  rfl

theorem tap4_im (x0 : (⟨S8x3000x481x2, .f32⟩ : BufTy).Contents (Elt Ideal)) (b : Fin 8) (τ : Fin 3000) (f : Fin 96) :
    val_main_v26 (F := Ideal) x0 (ix4 b τ f (0 : Fin 1)) = past x0 b τ f (1 : Fin 2) (4 : Fin 5) := by
  have hτ := τ.isLt
  rw [val_main_v26_apply, val_main_v21_apply]
  have e : idx_main_v21 (idx_main_v26 (ix4 b τ f (0 : Fin 1))) = ix3 b ⟨τ.val + 4, by omega⟩ f :=
    funext fun a => match a with
      | ⟨0, _⟩ => rfl
      | ⟨1, _⟩ => Fin.ext (by show 4 + τ.val = τ.val + 4; omega)
      | ⟨2, _⟩ => rfl
  rw [e, padded_im]
  rfl

/-- Entry `k` of the imaginary plane's stack at time `τ` is the signal `4 - k` steps earlier, zero before time 0. -/
theorem stack_im (x0 : (⟨S8x3000x481x2, .f32⟩ : BufTy).Contents (Elt Ideal)) (b : Fin 8) (τ : Fin 3000) (f : Fin 96)
    (k : Fin 5) : val_main_v27 (F := Ideal) x0 (ix4 b τ f k) = past x0 b τ f (1 : Fin 2) k := by
  unfold val_main_v27
  rw [stack5_apply]
  fin_cases k
  · exact tap0_im x0 b τ f
  · exact tap1_im x0 b τ f
  · exact tap2_im x0 b τ f
  · exact tap3_im x0 b τ f
  · exact tap4_im x0 b τ f

theorem tapsRe_apply (x1 : (⟨S8x3000x96x10, .f32⟩ : BufTy).Contents (Elt Ideal)) (b : Fin 8) (τ : Fin 3000) (f : Fin 96)
    (k : Fin 5) : val_main_v28 (F := Ideal) x1 (ix4 b τ f k) = tapRe x1 b τ f k := by
  rw [val_main_v28_apply]
  exact congrArg x1 (funext fun a => match a with | ⟨0, _⟩ => rfl | ⟨1, _⟩ => rfl | ⟨2, _⟩ => rfl | ⟨3, _⟩ => rfl)

theorem tapsIm_apply (x1 : (⟨S8x3000x96x10, .f32⟩ : BufTy).Contents (Elt Ideal)) (b : Fin 8) (τ : Fin 3000) (f : Fin 96)
    (k : Fin 5) : val_main_v29 (F := Ideal) x1 (ix4 b τ f k) = tapIm x1 b τ f k := by
  rw [val_main_v29_apply]
  exact congrArg x1 (funext fun a => match a with | ⟨0, _⟩ => rfl | ⟨1, _⟩ => rfl | ⟨2, _⟩ => rfl | ⟨3, _⟩ => rfl)

/-- The reference's first sum is the filtered real part. -/
theorem sum_re (x0 : (⟨S8x3000x481x2, .f32⟩ : BufTy).Contents (Elt Ideal))
    (x1 : (⟨S8x3000x96x10, .f32⟩ : BufTy).Contents (Elt Ideal)) (b : Fin 8) (τ : Fin 3000) (f : Fin 96) :
    val_main_v33 (F := Ideal) x0 x1 (ix3 b τ f) = firRe x0 x1 b τ f := by
  rw [val_main_v33_apply]
  unfold firRe
  refine congrArg₂ (· + ·) Ideal.ofBits_zero_f32 (Finset.sum_congr rfl fun k _ => ?_)
  have e : idx_main_v33 (ix3 b τ f) k = ix4 b τ f k :=
    funext fun a => match a with | ⟨0, _⟩ => rfl | ⟨1, _⟩ => rfl | ⟨2, _⟩ => rfl | ⟨3, _⟩ => rfl
  rw [e]
  show val_main_v16 (F := Ideal) x0 (ix4 b τ f k) * val_main_v28 (F := Ideal) x1 (ix4 b τ f k)
      - val_main_v27 (F := Ideal) x0 (ix4 b τ f k) * val_main_v29 (F := Ideal) x1 (ix4 b τ f k) = _
  rw [stack_re, stack_im, tapsRe_apply, tapsIm_apply]

/-- The reference's second sum is the filtered imaginary part. -/
theorem sum_im (x0 : (⟨S8x3000x481x2, .f32⟩ : BufTy).Contents (Elt Ideal))
    (x1 : (⟨S8x3000x96x10, .f32⟩ : BufTy).Contents (Elt Ideal)) (b : Fin 8) (τ : Fin 3000) (f : Fin 96) :
    val_main_v37 (F := Ideal) x0 x1 (ix3 b τ f) = firIm x0 x1 b τ f := by
  rw [val_main_v37_apply]
  unfold firIm
  refine congrArg₂ (· + ·) Ideal.ofBits_zero_f32 (Finset.sum_congr rfl fun k _ => ?_)
  have e : idx_main_v37 (ix3 b τ f) k = ix4 b τ f k :=
    funext fun a => match a with | ⟨0, _⟩ => rfl | ⟨1, _⟩ => rfl | ⟨2, _⟩ => rfl | ⟨3, _⟩ => rfl
  rw [e]
  show val_main_v16 (F := Ideal) x0 (ix4 b τ f k) * val_main_v29 (F := Ideal) x1 (ix4 b τ f k)
      + val_main_v27 (F := Ideal) x0 (ix4 b τ f k) * val_main_v28 (F := Ideal) x1 (ix4 b τ f k) = _
  rw [stack_re, stack_im, tapsRe_apply, tapsIm_apply]

end Cert.ReferenceIdeal.RefValue

end
-- ==== Proof.RefIsSpec.lean ====
/-
  The reference computes the filtered signal: its last stage read at `(b, τ, g, p)` is the filtered real or
  imaginary part below bin 96 (the two sums over the taps) and the signal itself from bin 96 on.
-/
import proofs.«150580_j36275293782100_2_alg».proof.Proof.RefScatter
import proofs.«150580_j36275293782100_2_alg».proof.Proof.RefStages

noncomputable section

namespace Cert.ReferenceIdeal.RefValue

open Cert.ReferenceIdeal Cert.ReferenceIdeal.Gen Cert.ReferenceIdeal.Read Cert.FirSpec
open Idealize.ShloMosaic Idealize.ShloMosaic.ValueIdx

/-- The reference's result is the filtered signal, as one function of the two arguments. -/
theorem reference_eq (x0 : (⟨S8x3000x481x2, .f32⟩ : BufTy).Contents (Elt Ideal))
    (x1 : (⟨S8x3000x96x10, .f32⟩ : BufTy).Contents (Elt Ideal)) :
    val_main_v45 (F := Ideal) x0 x1 = result x0 x1 := by
  funext i
  obtain ⟨b, τ, g, p, rfl⟩ : ∃ (b : Fin 8) (τ : Fin 3000) (g : Fin 481) (p : Fin 2), i = ix4 b τ g p :=
    ⟨i 0, i 1, i 2, i 3, eq_ix4 i⟩
  rw [scattered_apply]
  show _ = (if h : g.val < 96 then (if p.val = 0 then firRe x0 x1 b τ ⟨g.val, h⟩ else firIm x0 x1 b τ ⟨g.val, h⟩)
    else x0 (ix4 b τ g p))
  by_cases h : g.val < 96
  · rw [dif_pos h, dif_pos h, sum_re, sum_im]
  · rw [dif_neg h, dif_neg h]

end Cert.ReferenceIdeal.RefValue

end
-- ==== Proof.KernelBody.lean ====
/-
  What one run of the kernel body computes, as functions of what it loads: a block of the real plane, a block of
  the imaginary plane, the block of taps, and the two carried four-row histories.

  The body puts the four carried rows in front of the block's first 96 bins (204 rows), and for tap `k` reads
  rows `k .. k + 200` of that and columns `96 k ..` (real part) and `96 (5 + k) ..` (imaginary part) of the taps.
  It adds the products up tap after tap, starting from zero, and puts the other 385 bins behind unchanged.
  The new history is the block's last four rows.
-/
import proofs.«150580_j36275293782100_2_alg».proof.Proof.Gen.KernelIdeal.Skeleton
import proofs.«150580_j36275293782100_2_alg».proof.Proof.FirSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

section AnyFloat
variable {F : FTy → Type} [FloatOps F]

/-- The real plane's output block. -/
def outRe (x0 x1 : Vec F S1x200x481 .f32) (x2 : Vec F S1x200x960 .f32) (xs0 xs1 : Vec F S4x96 .f32) :
    FVec F S1x200x481 .f32 :=
  k0_pay1 (k0_pay37 (k0_pay5 x0) (k0_pay7 x2) (k0_pay10 x0 xs0) (k0_pay11 x1 xs1) (k0_pay20 x0 x1 x2 xs0 xs1))

/-- The imaginary plane's output block. -/
def outIm (x0 x1 : Vec F S1x200x481 .f32) (x2 : Vec F S1x200x960 .f32) (xs0 xs1 : Vec F S4x96 .f32) :
    FVec F S1x200x481 .f32 :=
  k0_pay2 (k0_pay38 (k0_pay6 x1) (k0_pay7 x2) (k0_pay10 x0 xs0) (k0_pay11 x1 xs1) (k0_pay21 x0 x1 x2 xs0 xs1)
    (k0_pay22 x1 x2 xs1))

/-- The history a block leaves: its last four rows, first 96 bins. -/
def lastRows (x : Vec F S1x200x481 .f32) : FVec F S4x96 .f32 := k0_pay35 (k0_pay8 x)

/-- The same rows, as the imaginary plane's store spells them. -/
def lastRows' (x : Vec F S1x200x481 .f32) : FVec F S4x96 .f32 := k0_pay36 (k0_pay9 x)

/-- The history a batch starts with: zeros. -/
def zeroRows : FVec F S4x96 .f32 := k0_pay3

/-- The same, as the imaginary plane's store spells it. -/
def zeroRows' : FVec F S4x96 .f32 := k0_pay4

end AnyFloat

/-! ## At the extended reals -/

/-- The 204 rows the taps slide over: the four carried rows, then the block's rows, in the first 96 bins. -/
def comb (x : Vec Ideal S1x200x481 .f32) (xs : Vec Ideal S4x96 .f32) (r : Fin 204) (f : Fin 96) : EReal :=
  if h : r.val < 4 then xs (ix2 ⟨r.val, h⟩ f) else x (ix3 (0 : Fin 1) ⟨r.val - 4, by omega⟩ ⟨f.val, by omega⟩)

theorem pay8_apply (x : Vec Ideal S1x200x481 .f32) (j : Fin 200) (f : Fin 96) :
    k0_pay8 (F := Ideal) x (ix2 j f) = x (ix3 (0 : Fin 1) j ⟨f.val, by omega⟩) := by
  unfold k0_pay8 k0_pay5
  exact (slice2_axis1_apply 0 _ _ j f ⟨f.val, by omega⟩ (by simp)).trans (shapeCast_1ab_ab_apply x _ _ _)

theorem pay9_apply (x : Vec Ideal S1x200x481 .f32) (j : Fin 200) (f : Fin 96) :
    k0_pay9 (F := Ideal) x (ix2 j f) = x (ix3 (0 : Fin 1) j ⟨f.val, by omega⟩) := by
  unfold k0_pay9 k0_pay6
  exact (slice2_axis1_apply 0 _ _ j f ⟨f.val, by omega⟩ (by simp)).trans (shapeCast_1ab_ab_apply x _ _ _)

theorem pay10_apply (x : Vec Ideal S1x200x481 .f32) (xs : Vec Ideal S4x96 .f32) (r : Fin 204) (f : Fin 96) :
    k0_pay10 (F := Ideal) x xs (ix2 r f) = comb x xs r f := by
  unfold k0_pay10 comb
  by_cases h : r.val < 4
  · rw [dif_pos h]
    exact concatenate_pair_apply_left (t := S204x96) (s₁ := S4x96) (s₂ := S200x96) (0 : Fin 2) _ _ _ (ix2 r f) rfl (ix2 ⟨r.val, h⟩ f)
      (fun b => match b with | ⟨0, _⟩ => rfl | ⟨1, _⟩ => rfl)
  · rw [dif_neg h]
    refine (concatenate_pair_apply_right (t := S204x96) (s₁ := S4x96) (s₂ := S200x96) (0 : Fin 2) _ _ _ (ix2 r f) rfl rfl (ix2 ⟨r.val - 4, by omega⟩ f)
      (fun b hb => match b, hb with | ⟨0, _⟩, hb => absurd rfl hb | ⟨1, _⟩, _ => rfl)
      (by show r.val - 4 + 4 = r.val; omega)).trans ?_
    exact pay8_apply x _ f

theorem pay11_apply (x : Vec Ideal S1x200x481 .f32) (xs : Vec Ideal S4x96 .f32) (r : Fin 204) (f : Fin 96) :
    k0_pay11 (F := Ideal) x xs (ix2 r f) = comb x xs r f := by
  unfold k0_pay11 comb
  by_cases h : r.val < 4
  · rw [dif_pos h]
    exact concatenate_pair_apply_left (t := S204x96) (s₁ := S4x96) (s₂ := S200x96) (0 : Fin 2) _ _ _ (ix2 r f) rfl (ix2 ⟨r.val, h⟩ f)
      (fun b => match b with | ⟨0, _⟩ => rfl | ⟨1, _⟩ => rfl)
  · rw [dif_neg h]
    refine (concatenate_pair_apply_right (t := S204x96) (s₁ := S4x96) (s₂ := S200x96) (0 : Fin 2) _ _ _ (ix2 r f) rfl rfl (ix2 ⟨r.val - 4, by omega⟩ f)
      (fun b hb => match b, hb with | ⟨0, _⟩, hb => absurd rfl hb | ⟨1, _⟩, _ => rfl)
      (by show r.val - 4 + 4 = r.val; omega)).trans ?_
    exact pay9_apply x _ f

theorem pay7_apply (x2 : Vec Ideal S1x200x960 .f32) (j : Fin 200) (e : Fin 960) :
    k0_pay7 (F := Ideal) x2 (ix2 j e) = x2 (ix3 (0 : Fin 1) j e) := by
  unfold k0_pay7
  exact shapeCast_1ab_ab_apply x2 _ _ _

/-- The history a block leaves is its rows 196 to 199. -/
theorem lastRows_apply (x : Vec Ideal S1x200x481 .f32) (r : Fin 4) (f : Fin 96) :
    lastRows (F := Ideal) x (ix2 r f) = x (ix3 (0 : Fin 1) ⟨196 + r.val, by omega⟩ ⟨f.val, by omega⟩) := by
  unfold lastRows k0_pay35
  rw [shapeCast_self]
  exact (slice2_axis0_apply 196 _ _ r f ⟨196 + r.val, by omega⟩ rfl).trans (pay8_apply x _ f)

theorem lastRows'_apply (x : Vec Ideal S1x200x481 .f32) (r : Fin 4) (f : Fin 96) :
    lastRows' (F := Ideal) x (ix2 r f) = x (ix3 (0 : Fin 1) ⟨196 + r.val, by omega⟩ ⟨f.val, by omega⟩) := by
  unfold lastRows' k0_pay36
  rw [shapeCast_self]
  exact (slice2_axis0_apply 196 _ _ r f ⟨196 + r.val, by omega⟩ rfl).trans (pay9_apply x _ f)

theorem zeroRows_apply (i : S4x96.Idx) : zeroRows (F := Ideal) i = 0 := by
  unfold zeroRows k0_pay3
  rw [shapeCast_self]
  exact Ideal.ofBits_zero_f32

theorem zeroRows'_apply (i : S4x96.Idx) : zeroRows' (F := Ideal) i = 0 := by
  unfold zeroRows' k0_pay4
  rw [shapeCast_self]
  exact Ideal.ofBits_zero_f32

/-! ## The taps' rows and columns -/

/-- Rows `o .. o + 200` of the 204 rows (real plane), read at a row and a bin. -/
theorem rows_apply (x : Vec Ideal S1x200x481 .f32) (xs : Vec Ideal S4x96 .f32) (o : Nat)
    (h : S204x96.Slices ![o, 0] S200x96) (j : Fin 200) (f : Fin 96) :
    extractStridedSlice S200x96 ![o, 0] (k0_pay10 (F := Ideal) x xs) h (ix2 j f)
      = comb x xs ⟨o + j.val, Nat.lt_of_lt_of_le (Nat.add_lt_add_left j.isLt o) (h.2 0)⟩ f :=
  (slice2_axis0_eq o _ h j f).trans (pay10_apply x xs _ f)

/-- The same for the imaginary plane. -/
theorem rows'_apply (x : Vec Ideal S1x200x481 .f32) (xs : Vec Ideal S4x96 .f32) (o : Nat)
    (h : S204x96.Slices ![o, 0] S200x96) (j : Fin 200) (f : Fin 96) :
    extractStridedSlice S200x96 ![o, 0] (k0_pay11 (F := Ideal) x xs) h (ix2 j f)
      = comb x xs ⟨o + j.val, Nat.lt_of_lt_of_le (Nat.add_lt_add_left j.isLt o) (h.2 0)⟩ f :=
  (slice2_axis0_eq o _ h j f).trans (pay11_apply x xs _ f)

/-- Columns `o .. o + 96` of the taps' block, read at a row and a bin. -/
theorem cols_apply (x2 : Vec Ideal S1x200x960 .f32) (o : Nat)
    (h : S200x960.Slices ![0, o] S200x96) (j : Fin 200) (f : Fin 96) :
    extractStridedSlice S200x96 ![0, o] (k0_pay7 (F := Ideal) x2) h (ix2 j f)
      = x2 (ix3 (0 : Fin 1) j ⟨o + f.val, Nat.lt_of_lt_of_le (Nat.add_lt_add_left f.isLt o) (h.2 1)⟩) :=
  (slice2_axis1_eq o _ h j f).trans (pay7_apply x2 j _)

/-- The row tap `k` reads at output row `j`. -/
def row (x : Vec Ideal S1x200x481 .f32) (xs : Vec Ideal S4x96 .f32) (j : Fin 200) (f : Fin 96) (k : Fin 5) : EReal :=
  comb x xs ⟨k.val + j.val, by omega⟩ f

/-- The real part of tap `k` in the block of taps. -/
def cRe (x2 : Vec Ideal S1x200x960 .f32) (j : Fin 200) (f : Fin 96) (k : Fin 5) : EReal :=
  x2 (ix3 (0 : Fin 1) j ⟨96 * k.val + f.val, by omega⟩)

/-- The imaginary part of tap `k` in the block of taps. -/
def cIm (x2 : Vec Ideal S1x200x960 .f32) (j : Fin 200) (f : Fin 96) (k : Fin 5) : EReal :=
  x2 (ix3 (0 : Fin 1) j ⟨96 * (5 + k.val) + f.val, by omega⟩)

theorem zero_word (i : S200x96.Idx) :
    (broadcast S200x96 (Scalar.ofBits (F := Ideal) .f32 0x00000000#32) : FVec Ideal S200x96 .f32) i = 0 :=
  Ideal.ofBits_zero_f32

/-- Below bin 96 the real output is the sum over the taps of `re·re - im·im`. -/
theorem outRe_low (x0 x1 : Vec Ideal S1x200x481 .f32) (x2 : Vec Ideal S1x200x960 .f32) (xs0 xs1 : Vec Ideal S4x96 .f32)
    (u : Fin 1) (j : Fin 200) (f : Fin 96) :
    outRe (F := Ideal) x0 x1 x2 xs0 xs1 (ix3 u j ⟨f.val, by omega⟩)
      = 0 + ∑ k : Fin 5, (row x0 xs0 j f k * cRe x2 j f k - row x1 xs1 j f k * cIm x2 j f k) := by
  unfold outRe k0_pay1
  rw [shapeCast_ab_1ab_apply]
  unfold k0_pay37
  refine (concatenate_pair_apply_left (t := S200x481) (s₁ := S200x96) (s₂ := S200x385) (1 : Fin 2) _ _ _
    (ix2 j ⟨f.val, by omega⟩) rfl (ix2 j f) (fun b => match b with | ⟨0, _⟩ => rfl | ⟨1, _⟩ => rfl)).trans ?_
  unfold k0_pay20 k0_pay12 k0_pay13 k0_pay14 k0_pay15 k0_pay16 k0_pay17 k0_pay18 k0_pay19 k0_pay23 k0_pay24 k0_pay25 k0_pay26
    k0_pay27 k0_pay28 k0_pay29 k0_pay30 k0_pay31 k0_pay32 k0_pay33 k0_pay34
  simp only [subf_apply, addf_apply, mulf_apply, rows_apply, rows'_apply, cols_apply, zero_word]
  rw [← Cert.FirSpec.chain_sub]
  unfold row cRe cIm
  rfl

/-- Below bin 96 the imaginary output is the sum over the taps of `re·im + im·re`. -/
theorem outIm_low (x0 x1 : Vec Ideal S1x200x481 .f32) (x2 : Vec Ideal S1x200x960 .f32) (xs0 xs1 : Vec Ideal S4x96 .f32)
    (u : Fin 1) (j : Fin 200) (f : Fin 96) :
    outIm (F := Ideal) x0 x1 x2 xs0 xs1 (ix3 u j ⟨f.val, by omega⟩)
      = 0 + ∑ k : Fin 5, (row x0 xs0 j f k * cIm x2 j f k + row x1 xs1 j f k * cRe x2 j f k) := by
  unfold outIm k0_pay2
  rw [shapeCast_ab_1ab_apply]
  unfold k0_pay38
  refine (concatenate_pair_apply_left (t := S200x481) (s₁ := S200x96) (s₂ := S200x385) (1 : Fin 2) _ _ _
    (ix2 j ⟨f.val, by omega⟩) rfl (ix2 j f) (fun b => match b with | ⟨0, _⟩ => rfl | ⟨1, _⟩ => rfl)).trans ?_
  unfold k0_pay21 k0_pay22 k0_pay12 k0_pay13 k0_pay14 k0_pay15 k0_pay16 k0_pay17 k0_pay18 k0_pay19 k0_pay23 k0_pay24 k0_pay25
    k0_pay26 k0_pay27 k0_pay28 k0_pay29 k0_pay30 k0_pay31 k0_pay32 k0_pay33 k0_pay34
  simp only [subf_apply, addf_apply, mulf_apply, rows_apply, rows'_apply, cols_apply, zero_word]
  rw [← Cert.FirSpec.chain_add]
  unfold row cRe cIm
  rfl

/-- From bin 96 on the real output is the real plane's block. -/
theorem outRe_high (x0 x1 : Vec Ideal S1x200x481 .f32) (x2 : Vec Ideal S1x200x960 .f32) (xs0 xs1 : Vec Ideal S4x96 .f32)
    (u : Fin 1) (j : Fin 200) (g : Fin 481) (hg : 96 ≤ g.val) :
    outRe (F := Ideal) x0 x1 x2 xs0 xs1 (ix3 u j g) = x0 (ix3 (0 : Fin 1) j g) := by
  unfold outRe k0_pay1
  rw [shapeCast_ab_1ab_apply]
  unfold k0_pay37
  refine (concatenate_pair_apply_right (t := S200x481) (s₁ := S200x96) (s₂ := S200x385) (1 : Fin 2) _ _ _
    (ix2 j g) rfl rfl (ix2 j ⟨g.val - 96, by omega⟩)
    (fun b hb => match b, hb with | ⟨0, _⟩, _ => rfl | ⟨1, _⟩, hb => absurd rfl hb)
    (by show g.val - 96 + 96 = g.val; omega)).trans ?_
  unfold k0_pay5
  exact (slice2_axis1_apply 96 _ _ j _ g (by show g.val = 96 + (g.val - 96); omega)).trans
    (shapeCast_1ab_ab_apply x0 _ _ _)

/-- From bin 96 on the imaginary output is the imaginary plane's block. -/
theorem outIm_high (x0 x1 : Vec Ideal S1x200x481 .f32) (x2 : Vec Ideal S1x200x960 .f32) (xs0 xs1 : Vec Ideal S4x96 .f32)
    (u : Fin 1) (j : Fin 200) (g : Fin 481) (hg : 96 ≤ g.val) :
    outIm (F := Ideal) x0 x1 x2 xs0 xs1 (ix3 u j g) = x1 (ix3 (0 : Fin 1) j g) := by
  unfold outIm k0_pay2
  rw [shapeCast_ab_1ab_apply]
  unfold k0_pay38
  refine (concatenate_pair_apply_right (t := S200x481) (s₁ := S200x96) (s₂ := S200x385) (1 : Fin 2) _ _ _
    (ix2 j g) rfl rfl (ix2 j ⟨g.val - 96, by omega⟩)
    (fun b hb => match b, hb with | ⟨0, _⟩, _ => rfl | ⟨1, _⟩, hb => absurd rfl hb)
    (by show g.val - 96 + 96 = g.val; omega)).trans ?_
  unfold k0_pay6
  exact (slice2_axis1_apply 96 _ _ j _ g (by show g.val = 96 + (g.val - 96); omega)).trans
    (shapeCast_1ab_ab_apply x1 _ _ _)

end Cert.KernelIdeal.Body

end
-- ==== Proof.KernelPieces.lean ====
/-
  What each of the body's two control cases leaves in the two output blocks and in the two carried histories,
  as the body's functions of what it loaded: in the first time tile of a batch the histories it reads are the
  zeros it has just stored; in the other tiles they are what the tile before left.
-/
import proofs.«150580_j36275293782100_2_alg».proof.Proof.Gen.KernelIdeal.Frame
import proofs.«150580_j36275293782100_2_alg».proof.Proof.KernelBody
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen Cert.KernelIdeal.Body

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A later tile of a batch -/

theorem later_re (c : Dev nD) (i : grid0.Coords) (a2 : Memref sig .tc .vmem S1x200x481 .f32) (h2 : a2.IsWhole) (a3 : Memref sig .tc .vmem S1x200x481 .f32) (h3 : a3.IsWhole) (a4 : Memref sig .tc .vmem S1x200x960 .f32) (h4 : a4.IsWhole) (a5 : Memref sig .tc .vmem S1x200x481 .f32) (h5 : a5.IsWhole) (a6 : Memref sig .tc .vmem S1x200x481 .f32) (h6 : a6.IsWhole) (a7 : Memref sig .tc .vmem S4x96 .f32) (h7 : a7.IsWhole) (a8 : Memref sig .tc .vmem S4x96 .f32) (h8 : a8.IsWhole) (hc : ¬cond0_0 i)
    (x0 x1 : Vec F S1x200x481 .f32) (x2 : Vec F S1x200x960 .f32) (xs0 xs1 : Vec F S4x96 .f32) :
    out0_B_3 c i a2 h2 a3 h3 a4 h4 a5 h5 a6 h6 a7 h7 a8 h8 hc x0 x1 x2 xs0 xs1 = outRe x0 x1 x2 xs0 xs1 := by
  unfold out0_B_3
  rw [View.read_writes_eq_canon _ _ _ (cover0_B_3 c i a2 h2 a3 h3 a4 h4 a5 h5 a6 h6 a7 h7 a8 h8 hc x0 x1 x2 xs0 xs1)]
  unfold kernelRun0_B
  dsimp only
  sl_unfold_words
  rw [View.canon_unit_zero hz3]
  simp only [View.readAt_eq_ld, h2.read_unread, h3.read_unread, h4.read_unread, h7.read_unread, h8.read_unread,
    View.ld_unit_zero (S := S1x200x481) hz3, View.ld_unit_zero (S := S1x200x960) hz3, View.ld_unit_zero (S := S4x96) hz2]
  rfl

theorem later_im (c : Dev nD) (i : grid0.Coords) (a2 : Memref sig .tc .vmem S1x200x481 .f32) (h2 : a2.IsWhole) (a3 : Memref sig .tc .vmem S1x200x481 .f32) (h3 : a3.IsWhole) (a4 : Memref sig .tc .vmem S1x200x960 .f32) (h4 : a4.IsWhole) (a5 : Memref sig .tc .vmem S1x200x481 .f32) (h5 : a5.IsWhole) (a6 : Memref sig .tc .vmem S1x200x481 .f32) (h6 : a6.IsWhole) (a7 : Memref sig .tc .vmem S4x96 .f32) (h7 : a7.IsWhole) (a8 : Memref sig .tc .vmem S4x96 .f32) (h8 : a8.IsWhole) (hc : ¬cond0_0 i)
    (x0 x1 : Vec F S1x200x481 .f32) (x2 : Vec F S1x200x960 .f32) (xs0 xs1 : Vec F S4x96 .f32) :
    out0_B_4 c i a2 h2 a3 h3 a4 h4 a5 h5 a6 h6 a7 h7 a8 h8 hc x0 x1 x2 xs0 xs1 = outIm x0 x1 x2 xs0 xs1 := by
  unfold out0_B_4
  rw [View.read_writes_eq_canon _ _ _ (cover0_B_4 c i a2 h2 a3 h3 a4 h4 a5 h5 a6 h6 a7 h7 a8 h8 hc x0 x1 x2 xs0 xs1)]
  unfold kernelRun0_B
  dsimp only
  sl_unfold_words
  rw [View.canon_unit_zero hz3]
  simp only [View.readAt_eq_ld, h2.read_unread, h3.read_unread, h4.read_unread, h7.read_unread, h8.read_unread,
    View.ld_unit_zero (S := S1x200x481) hz3, View.ld_unit_zero (S := S1x200x960) hz3, View.ld_unit_zero (S := S4x96) hz2]
  rfl

theorem later_carry_re (c : Dev nD) (i : grid0.Coords) (a2 : Memref sig .tc .vmem S1x200x481 .f32) (h2 : a2.IsWhole) (a3 : Memref sig .tc .vmem S1x200x481 .f32) (h3 : a3.IsWhole) (a4 : Memref sig .tc .vmem S1x200x960 .f32) (h4 : a4.IsWhole) (a5 : Memref sig .tc .vmem S1x200x481 .f32) (h5 : a5.IsWhole) (a6 : Memref sig .tc .vmem S1x200x481 .f32) (h6 : a6.IsWhole) (a7 : Memref sig .tc .vmem S4x96 .f32) (h7 : a7.IsWhole) (a8 : Memref sig .tc .vmem S4x96 .f32) (h8 : a8.IsWhole) (hc : ¬cond0_0 i)
    (x0 x1 : Vec F S1x200x481 .f32) (x2 : Vec F S1x200x960 .f32) (xs0 xs1 : Vec F S4x96 .f32) :
    sout0_B_0 c i a2 h2 a3 h3 a4 h4 a5 h5 a6 h6 a7 h7 a8 h8 hc x0 x1 x2 xs0 xs1 = lastRows x0 := by
  unfold sout0_B_0
  rw [View.read_writes_eq_canon _ _ _ (scover0_B_0 c i a2 h2 a3 h3 a4 h4 a5 h5 a6 h6 a7 h7 a8 h8 hc x0 x1 x2 xs0 xs1)]
  unfold kernelRun0_B
  dsimp only
  sl_unfold_words
  rw [View.canon_unit_zero hz2]
  simp only [View.readAt_eq_ld, h2.read_unread, h3.read_unread, h4.read_unread, h7.read_unread, h8.read_unread,
    View.ld_unit_zero (S := S1x200x481) hz3, View.ld_unit_zero (S := S1x200x960) hz3, View.ld_unit_zero (S := S4x96) hz2]
  rfl

theorem later_carry_im (c : Dev nD) (i : grid0.Coords) (a2 : Memref sig .tc .vmem S1x200x481 .f32) (h2 : a2.IsWhole) (a3 : Memref sig .tc .vmem S1x200x481 .f32) (h3 : a3.IsWhole) (a4 : Memref sig .tc .vmem S1x200x960 .f32) (h4 : a4.IsWhole) (a5 : Memref sig .tc .vmem S1x200x481 .f32) (h5 : a5.IsWhole) (a6 : Memref sig .tc .vmem S1x200x481 .f32) (h6 : a6.IsWhole) (a7 : Memref sig .tc .vmem S4x96 .f32) (h7 : a7.IsWhole) (a8 : Memref sig .tc .vmem S4x96 .f32) (h8 : a8.IsWhole) (hc : ¬cond0_0 i)
    (x0 x1 : Vec F S1x200x481 .f32) (x2 : Vec F S1x200x960 .f32) (xs0 xs1 : Vec F S4x96 .f32) :
    sout0_B_1 c i a2 h2 a3 h3 a4 h4 a5 h5 a6 h6 a7 h7 a8 h8 hc x0 x1 x2 xs0 xs1 = lastRows' x1 := by
  unfold sout0_B_1
  rw [View.read_writes_eq_canon _ _ _ (scover0_B_1 c i a2 h2 a3 h3 a4 h4 a5 h5 a6 h6 a7 h7 a8 h8 hc x0 x1 x2 xs0 xs1)]
  unfold kernelRun0_B
  dsimp only
  sl_unfold_words
  rw [View.canon_unit_zero hz2]
  simp only [View.readAt_eq_ld, h2.read_unread, h3.read_unread, h4.read_unread, h7.read_unread, h8.read_unread,
    View.ld_unit_zero (S := S1x200x481) hz3, View.ld_unit_zero (S := S1x200x960) hz3, View.ld_unit_zero (S := S4x96) hz2]
  rfl

/-! ## The first tile of a batch -/

theorem first_re (c : Dev nD) (i : grid0.Coords) (a2 : Memref sig .tc .vmem S1x200x481 .f32) (h2 : a2.IsWhole) (a3 : Memref sig .tc .vmem S1x200x481 .f32) (h3 : a3.IsWhole) (a4 : Memref sig .tc .vmem S1x200x960 .f32) (h4 : a4.IsWhole) (a5 : Memref sig .tc .vmem S1x200x481 .f32) (h5 : a5.IsWhole) (a6 : Memref sig .tc .vmem S1x200x481 .f32) (h6 : a6.IsWhole) (a7 : Memref sig .tc .vmem S4x96 .f32) (h7 : a7.IsWhole) (a8 : Memref sig .tc .vmem S4x96 .f32) (h8 : a8.IsWhole) (hc : cond0_0 i)
    (x0 x1 : Vec F S1x200x481 .f32) (x2 : Vec F S1x200x960 .f32) :
    out0_A_3 c i a2 h2 a3 h3 a4 h4 a5 h5 a6 h6 a7 h7 a8 h8 hc x0 x1 x2 = outRe x0 x1 x2 zeroRows zeroRows' := by
  unfold out0_A_3
  rw [View.read_writes_eq_canon _ _ _ (cover0_A_3 c i a2 h2 a3 h3 a4 h4 a5 h5 a6 h6 a7 h7 a8 h8 hc x0 x1 x2)]
  unfold kernelRun0_A
  dsimp only
  sl_unfold_words
  rw [View.canon_unit_zero hz3]
  simp only [View.readAt_eq_ld, h2.read_unread, h3.read_unread, h4.read_unread, h7.read_unread, h8.read_unread,
    View.ld_unit_zero (S := S1x200x481) hz3, View.ld_unit_zero (S := S1x200x960) hz3, View.ld_unit_zero (S := S4x96) hz2,
    View.readCov_unit_zero (S := S4x96) _ hz2]
  rfl

theorem first_im (c : Dev nD) (i : grid0.Coords) (a2 : Memref sig .tc .vmem S1x200x481 .f32) (h2 : a2.IsWhole) (a3 : Memref sig .tc .vmem S1x200x481 .f32) (h3 : a3.IsWhole) (a4 : Memref sig .tc .vmem S1x200x960 .f32) (h4 : a4.IsWhole) (a5 : Memref sig .tc .vmem S1x200x481 .f32) (h5 : a5.IsWhole) (a6 : Memref sig .tc .vmem S1x200x481 .f32) (h6 : a6.IsWhole) (a7 : Memref sig .tc .vmem S4x96 .f32) (h7 : a7.IsWhole) (a8 : Memref sig .tc .vmem S4x96 .f32) (h8 : a8.IsWhole) (hc : cond0_0 i)
    (x0 x1 : Vec F S1x200x481 .f32) (x2 : Vec F S1x200x960 .f32) :
    out0_A_4 c i a2 h2 a3 h3 a4 h4 a5 h5 a6 h6 a7 h7 a8 h8 hc x0 x1 x2 = outIm x0 x1 x2 zeroRows zeroRows' := by
  unfold out0_A_4
  rw [View.read_writes_eq_canon _ _ _ (cover0_A_4 c i a2 h2 a3 h3 a4 h4 a5 h5 a6 h6 a7 h7 a8 h8 hc x0 x1 x2)]
  unfold kernelRun0_A
  dsimp only
  sl_unfold_words
  rw [View.canon_unit_zero hz3]
  simp only [View.readAt_eq_ld, h2.read_unread, h3.read_unread, h4.read_unread, h7.read_unread, h8.read_unread,
    View.ld_unit_zero (S := S1x200x481) hz3, View.ld_unit_zero (S := S1x200x960) hz3, View.ld_unit_zero (S := S4x96) hz2,
    View.readCov_unit_zero (S := S4x96) _ hz2]
  rfl

theorem first_carry_re (c : Dev nD) (i : grid0.Coords) (a2 : Memref sig .tc .vmem S1x200x481 .f32) (h2 : a2.IsWhole) (a3 : Memref sig .tc .vmem S1x200x481 .f32) (h3 : a3.IsWhole) (a4 : Memref sig .tc .vmem S1x200x960 .f32) (h4 : a4.IsWhole) (a5 : Memref sig .tc .vmem S1x200x481 .f32) (h5 : a5.IsWhole) (a6 : Memref sig .tc .vmem S1x200x481 .f32) (h6 : a6.IsWhole) (a7 : Memref sig .tc .vmem S4x96 .f32) (h7 : a7.IsWhole) (a8 : Memref sig .tc .vmem S4x96 .f32) (h8 : a8.IsWhole) (hc : cond0_0 i)
    (x0 x1 : Vec F S1x200x481 .f32) (x2 : Vec F S1x200x960 .f32) :
    sout0_A_0 c i a2 h2 a3 h3 a4 h4 a5 h5 a6 h6 a7 h7 a8 h8 hc x0 x1 x2 = lastRows x0 := by
  unfold sout0_A_0
  rw [View.read_writes_eq_canon _ _ _ (scover0_A_0 c i a2 h2 a3 h3 a4 h4 a5 h5 a6 h6 a7 h7 a8 h8 hc x0 x1 x2)]
  unfold kernelRun0_A
  dsimp only
  sl_unfold_words
  rw [View.canon_cons_unit_zero (S := S4x96) hz2]
  simp only [View.readAt_eq_ld, h2.read_unread, h3.read_unread, h4.read_unread, h7.read_unread, h8.read_unread,
    View.ld_unit_zero (S := S1x200x481) hz3, View.ld_unit_zero (S := S1x200x960) hz3, View.ld_unit_zero (S := S4x96) hz2,
    View.readCov_unit_zero (S := S4x96) _ hz2]
  rfl

theorem first_carry_im (c : Dev nD) (i : grid0.Coords) (a2 : Memref sig .tc .vmem S1x200x481 .f32) (h2 : a2.IsWhole) (a3 : Memref sig .tc .vmem S1x200x481 .f32) (h3 : a3.IsWhole) (a4 : Memref sig .tc .vmem S1x200x960 .f32) (h4 : a4.IsWhole) (a5 : Memref sig .tc .vmem S1x200x481 .f32) (h5 : a5.IsWhole) (a6 : Memref sig .tc .vmem S1x200x481 .f32) (h6 : a6.IsWhole) (a7 : Memref sig .tc .vmem S4x96 .f32) (h7 : a7.IsWhole) (a8 : Memref sig .tc .vmem S4x96 .f32) (h8 : a8.IsWhole) (hc : cond0_0 i)
    (x0 x1 : Vec F S1x200x481 .f32) (x2 : Vec F S1x200x960 .f32) :
    sout0_A_1 c i a2 h2 a3 h3 a4 h4 a5 h5 a6 h6 a7 h7 a8 h8 hc x0 x1 x2 = lastRows' x1 := by
  unfold sout0_A_1
  rw [View.read_writes_eq_canon _ _ _ (scover0_A_1 c i a2 h2 a3 h3 a4 h4 a5 h5 a6 h6 a7 h7 a8 h8 hc x0 x1 x2)]
  unfold kernelRun0_A
  dsimp only
  sl_unfold_words
  rw [View.canon_cons_unit_zero (S := S4x96) hz2]
  simp only [View.readAt_eq_ld, h2.read_unread, h3.read_unread, h4.read_unread, h7.read_unread, h8.read_unread,
    View.ld_unit_zero (S := S1x200x481) hz3, View.ld_unit_zero (S := S1x200x960) hz3, View.ld_unit_zero (S := S4x96) hz2,
    View.readCov_unit_zero (S := S4x96) _ hz2]
  rfl

end Cert.KernelIdeal.Pieces

end
-- ==== Proof.KernelPoint.lean ====
/-
  One grid point, at the extended reals: when the three loaded blocks are the blocks of the two planes and of
  the taps at batch `b` and time tile `tt`, and the carried rows are the four rows of the planes just before the
  tile (zeros for the first tile of a batch), the two stored blocks are the filtered signal's two planes on the
  tile's rows.

  A tap `k` at output row `j` reads row `k + j` of "carried rows, then the tile": a carried row when
  `k + j < 4` — time `200 tt - 4 + (k + j)`, or zero when `tt = 0` — and the tile's row `k + j - 4` otherwise.
  Both are the signal at time `(200 tt + j) + k - 4`, zero before time 0.
-/
import proofs.«150580_j36275293782100_2_alg».proof.Proof.KernelBody

noncomputable section

open scoped BigOperators

namespace Cert.KernelIdeal.Body

open Cert.KernelIdeal Cert.KernelIdeal.Gen Cert.FirSpec Idealize.ShloMosaic Idealize.ShloMosaic.ValueIdx

/-- What the body's loads hold at batch `b`, time tile `tt`. -/
structure AtPoint (spec : SigShape.Idx → EReal) (coef : TapShape.Idx → EReal) (b : Fin 8) (tt : Fin 15)
    (x0 x1 : Vec Ideal S1x200x481 .f32) (x2 : Vec Ideal S1x200x960 .f32) (xs0 xs1 : Vec Ideal S4x96 .f32) : Prop where
  re : ∀ (j : Fin 200) (g : Fin 481),
    x0 (ix3 (0 : Fin 1) j g) = spec (ix4 b ⟨200 * tt.val + j.val, by omega⟩ g (0 : Fin 2))
  im : ∀ (j : Fin 200) (g : Fin 481),
    x1 (ix3 (0 : Fin 1) j g) = spec (ix4 b ⟨200 * tt.val + j.val, by omega⟩ g (1 : Fin 2))
  taps : ∀ (j : Fin 200) (f : Fin 96) (c : Fin 10),
    x2 (ix3 (0 : Fin 1) j ⟨96 * c.val + f.val, by omega⟩) = coef (ix4 b ⟨200 * tt.val + j.val, by omega⟩ f c)
  carryRe : ∀ (r : Fin 4) (f : Fin 96), xs0 (ix2 r f)
    = if h : tt.val = 0 then 0 else spec (ix4 b ⟨200 * tt.val - 4 + r.val, by omega⟩ ⟨f.val, by omega⟩ (0 : Fin 2))
  carryIm : ∀ (r : Fin 4) (f : Fin 96), xs1 (ix2 r f)
    = if h : tt.val = 0 then 0 else spec (ix4 b ⟨200 * tt.val - 4 + r.val, by omega⟩ ⟨f.val, by omega⟩ (1 : Fin 2))

/-- The signal read at two times with one value is one entry. -/
theorem at_time (spec : SigShape.Idx → EReal) (b : Fin 8) (g : Fin 481) (p : Fin 2) (τ τ' : Fin 3000)
    (h : τ.val = τ'.val) : spec (ix4 b τ g p) = spec (ix4 b τ' g p) := by
  obtain rfl : τ = τ' := Fin.ext h
  rfl

/-- The row a tap reads is the signal `4 - k` steps before the output row's time, zero before time 0. -/
theorem row_eq_past (spec : SigShape.Idx → EReal) (b : Fin 8) (tt : Fin 15) (p : Fin 2)
    (x : Vec Ideal S1x200x481 .f32) (xs : Vec Ideal S4x96 .f32)
    (hx : ∀ (j : Fin 200) (g : Fin 481), x (ix3 (0 : Fin 1) j g) = spec (ix4 b ⟨200 * tt.val + j.val, by omega⟩ g p))
    (hxs : ∀ (r : Fin 4) (f : Fin 96), xs (ix2 r f)
      = if h : tt.val = 0 then 0 else spec (ix4 b ⟨200 * tt.val - 4 + r.val, by omega⟩ ⟨f.val, by omega⟩ p))
    (j : Fin 200) (f : Fin 96) (k : Fin 5) :
    row x xs j f k = past spec b ⟨200 * tt.val + j.val, by omega⟩ f p k := by
  have hj := j.isLt
  have hk := k.isLt
  have ht := tt.isLt
  unfold row comb past
  by_cases h : k.val + j.val < 4
  · rw [dif_pos h, hxs]
    by_cases h0 : tt.val = 0
    · rw [dif_pos h0, dif_neg (by show ¬ 4 ≤ 200 * tt.val + j.val + k.val; omega)]
    · rw [dif_neg h0, dif_pos (by show 4 ≤ 200 * tt.val + j.val + k.val; omega)]
      exact at_time spec b _ p _ _ (by show 200 * tt.val - 4 + (k.val + j.val) = 200 * tt.val + j.val + k.val - 4; omega)
  · rw [dif_neg h, hx, dif_pos (by show 4 ≤ 200 * tt.val + j.val + k.val; omega)]
    exact at_time spec b _ p _ _ (by show 200 * tt.val + (k.val + j.val - 4) = 200 * tt.val + j.val + k.val - 4; omega)

variable {spec : SigShape.Idx → EReal} {coef : TapShape.Idx → EReal} {b : Fin 8} {tt : Fin 15}
  {x0 x1 : Vec Ideal S1x200x481 .f32} {x2 : Vec Ideal S1x200x960 .f32} {xs0 xs1 : Vec Ideal S4x96 .f32}

theorem AtPoint.cRe_eq (H : AtPoint spec coef b tt x0 x1 x2 xs0 xs1) (j : Fin 200) (f : Fin 96) (k : Fin 5) :
    cRe x2 j f k = tapRe coef b ⟨200 * tt.val + j.val, by omega⟩ f k :=
  H.taps j f ⟨k.val, by omega⟩

theorem AtPoint.cIm_eq (H : AtPoint spec coef b tt x0 x1 x2 xs0 xs1) (j : Fin 200) (f : Fin 96) (k : Fin 5) :
    cIm x2 j f k = tapIm coef b ⟨200 * tt.val + j.val, by omega⟩ f k :=
  H.taps j f ⟨5 + k.val, by omega⟩

/-- The real plane's stored block is the filtered signal's real plane on the tile's rows. -/
theorem AtPoint.outRe_eq (H : AtPoint spec coef b tt x0 x1 x2 xs0 xs1) (u : Fin 1) (j : Fin 200) (g : Fin 481) :
    outRe (F := Ideal) x0 x1 x2 xs0 xs1 (ix3 u j g)
      = plane spec coef (0 : Fin 2) b ⟨200 * tt.val + j.val, by omega⟩ g := by
  unfold plane
  by_cases hg : g.val < 96
  · rw [dif_pos hg, if_pos (show ((0 : Fin 2) : ℕ) = 0 from rfl)]
    have e := outRe_low x0 x1 x2 xs0 xs1 u j ⟨g.val, hg⟩
    rw [show (⟨(⟨g.val, hg⟩ : Fin 96).val, by omega⟩ : Fin 481) = g from Fin.ext rfl] at e
    rw [e]
    unfold firRe
    refine congrArg (0 + ·) (Finset.sum_congr rfl fun k _ => ?_)
    rw [row_eq_past spec b tt 0 x0 xs0 H.re H.carryRe, row_eq_past spec b tt 1 x1 xs1 H.im H.carryIm, H.cRe_eq, H.cIm_eq]
  · rw [dif_neg hg, outRe_high x0 x1 x2 xs0 xs1 u j g (by omega)]
    exact H.re j g

/-- The imaginary plane's stored block is the filtered signal's imaginary plane on the tile's rows. -/
theorem AtPoint.outIm_eq (H : AtPoint spec coef b tt x0 x1 x2 xs0 xs1) (u : Fin 1) (j : Fin 200) (g : Fin 481) :
    outIm (F := Ideal) x0 x1 x2 xs0 xs1 (ix3 u j g)
      = plane spec coef (1 : Fin 2) b ⟨200 * tt.val + j.val, by omega⟩ g := by
  unfold plane
  by_cases hg : g.val < 96
  · rw [dif_pos hg, if_neg (show ¬ ((1 : Fin 2) : ℕ) = 0 by decide)]
    have e := outIm_low x0 x1 x2 xs0 xs1 u j ⟨g.val, hg⟩
    rw [show (⟨(⟨g.val, hg⟩ : Fin 96).val, by omega⟩ : Fin 481) = g from Fin.ext rfl] at e
    rw [e]
    unfold firIm
    refine congrArg (0 + ·) (Finset.sum_congr rfl fun k _ => ?_)
    rw [row_eq_past spec b tt 0 x0 xs0 H.re H.carryRe, row_eq_past spec b tt 1 x1 xs1 H.im H.carryIm, H.cRe_eq, H.cIm_eq]
  · rw [dif_neg hg, outIm_high x0 x1 x2 xs0 xs1 u j g (by omega)]
    exact H.im j g

end Cert.KernelIdeal.Body

end
-- ==== Proof.KernelArrays.lean ====
/-
  What the region finds in the three arrays it stages, and what a window's block at a grid point is.

  Before the region the host cuts the signal into its two planes (a slice of the last axis, then the unit axis
  dropped) and lays the taps out tap-major: `(b, τ, bin, c)` goes to `(b, τ, 96 c + bin)`. Grid point `t` is
  batch `t / 15`, time tile `t % 15`; every window's block there is rows `200 (t % 15) ..` of batch `t / 15`.
-/
import proofs.«150580_j36275293782100_2_alg».proof.Proof.Gen.KernelIdeal.Frame.Runs
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.StableHlo

namespace Cert.KernelIdeal.Arrays

open Cert.KernelIdeal Cert.KernelIdeal.Gen Idealize.ShloMosaic.ValueIdx

variable (m : (ℓ : Loc nD τ sig) → Buf (Elt Ideal) ℓ)

/-- The signal as launched. -/
abbrev sigOf (c : Dev nD) : S8x3000x481x2.Idx → EReal := m ((c : Thread nD τ).loc main_arg0)
/-- The taps as launched. -/
abbrev tapsOf (c : Dev nD) : S8x3000x96x10.Idx → EReal := m ((c : Thread nD τ).loc main_arg1)

theorem V_re (c : Dev nD) : (V m c main_v1 : S8x3000x481.Idx → EReal)
    = shapeCast S8x3000x481 (extractStridedSlice S8x3000x481x1 ![0, 0, 0, 0] (sigOf m c)
        slices_S8x3000x481x2_S8x3000x481x1_0_0_0_0) shapeCasts_S8x3000x481x1_S8x3000x481 := by
  show StableHlo.after hostOps0 (fun b => m (c, b)) (Proc.devRef .tc main_v1) = _
  after_results
  rfl

theorem V_im (c : Dev nD) : (V m c main_v3 : S8x3000x481.Idx → EReal)
    = shapeCast S8x3000x481 (extractStridedSlice S8x3000x481x1 ![0, 0, 0, 1] (sigOf m c)
        slices_S8x3000x481x2_S8x3000x481x1_0_0_0_1) shapeCasts_S8x3000x481x1_S8x3000x481 := by
  show StableHlo.after hostOps0 (fun b => m (c, b)) (Proc.devRef .tc main_v3) = _
  after_results
  rfl

theorem V_taps (c : Dev nD) : (V m c main_v5 : S8x3000x960.Idx → EReal)
    = shapeCast S8x3000x960 (transpose S8x3000x10x96 [0, 1, 3, 2] (tapsOf m c)
        transposes_S8x3000x96x10_S8x3000x10x96_0_1_3_2) shapeCasts_S8x3000x10x96_S8x3000x960 := by
  show StableHlo.after hostOps0 (fun b => m (c, b)) (Proc.devRef .tc main_v5) = _
  after_results
  rfl

/-- The real plane the region finds, at `(b, τ, g)`: the signal's plane 0. -/
theorem V_re_apply (c : Dev nD) (b : Fin 8) (τ : Fin 3000) (g : Fin 481) :
    (V m c main_v1 : S8x3000x481.Idx → EReal) (ix3 b τ g) = sigOf m c (ix4 b τ g (0 : Fin 2)) := by
  rw [V_re]
  refine (shapeCast_apply _ _ (ix3 b τ g) (ix4 b τ g (0 : Fin 1)) (by
    rw [Shape.rowMajor_val_four, Shape.rowMajor_val_three]
    show ((b.val * 3000 + τ.val) * 481 + g.val) * 1 + 0 = (b.val * 3000 + τ.val) * 481 + g.val
    omega)).trans ?_
  exact extractStridedSlice_apply _ _ _ (ix4 b τ g (0 : Fin 1)) (ix4 b τ g (0 : Fin 2)) (fun a => match a with
    | ⟨0, _⟩ => by show b.val = 0 + b.val; omega
    | ⟨1, _⟩ => by show τ.val = 0 + τ.val; omega
    | ⟨2, _⟩ => by show g.val = 0 + g.val; omega
    | ⟨3, _⟩ => by show 0 = 0 + 0; rfl)

/-- The imaginary plane the region finds, at `(b, τ, g)`: the signal's plane 1. -/
theorem V_im_apply (c : Dev nD) (b : Fin 8) (τ : Fin 3000) (g : Fin 481) :
    (V m c main_v3 : S8x3000x481.Idx → EReal) (ix3 b τ g) = sigOf m c (ix4 b τ g (1 : Fin 2)) := by
  rw [V_im]
  refine (shapeCast_apply _ _ (ix3 b τ g) (ix4 b τ g (0 : Fin 1)) (by
    rw [Shape.rowMajor_val_four, Shape.rowMajor_val_three]
    show ((b.val * 3000 + τ.val) * 481 + g.val) * 1 + 0 = (b.val * 3000 + τ.val) * 481 + g.val
    omega)).trans ?_
  exact extractStridedSlice_apply _ _ _ (ix4 b τ g (0 : Fin 1)) (ix4 b τ g (1 : Fin 2)) (fun a => match a with
    | ⟨0, _⟩ => by show b.val = 0 + b.val; omega
    | ⟨1, _⟩ => by show τ.val = 0 + τ.val; omega
    | ⟨2, _⟩ => by show g.val = 0 + g.val; omega
    | ⟨3, _⟩ => by show 1 = 1 + 0; rfl)

/-- The taps the region finds, at `(b, τ, 96 c + bin)`: component `c` of the taps at `(b, τ, bin)`. -/
theorem V_taps_apply (c : Dev nD) (b : Fin 8) (τ : Fin 3000) (f : Fin 96) (cc : Fin 10) :
    (V m c main_v5 : S8x3000x960.Idx → EReal) (ix3 b τ ⟨96 * cc.val + f.val, by omega⟩)
      = tapsOf m c (ix4 b τ f cc) := by
  rw [V_taps]
  refine (shapeCast_apply _ _ (ix3 b τ ⟨96 * cc.val + f.val, by omega⟩) (ix4 b τ cc f) (by
    rw [Shape.rowMajor_val_four, Shape.rowMajor_val_three]
    show ((b.val * 3000 + τ.val) * 10 + cc.val) * 96 + f.val = (b.val * 3000 + τ.val) * 960 + (96 * cc.val + f.val)
    omega)).trans ?_
  exact transpose_apply _ _ _ (ix4 b τ cc f) (ix4 b τ f cc) (fun a => match a with
    | ⟨0, _⟩ => rfl
    | ⟨1, _⟩ => rfl
    | ⟨2, _⟩ => rfl
    | ⟨3, _⟩ => rfl)

/-! ## Blocks at a grid point -/

/-- Every window's block index at point `t` is `(t / 15, t % 15, 0)`. -/
theorem idx_facts : ∀ t : Fin cfg0.N,
    win0_0.index t (0 : Fin 3) = t.val / 15 ∧ win0_0.index t (1 : Fin 3) = t.val % 15 ∧ win0_0.index t (2 : Fin 3) = 0
    ∧ win0_1.index t (0 : Fin 3) = t.val / 15 ∧ win0_1.index t (1 : Fin 3) = t.val % 15 ∧ win0_1.index t (2 : Fin 3) = 0
    ∧ win0_2.index t (0 : Fin 3) = t.val / 15 ∧ win0_2.index t (1 : Fin 3) = t.val % 15 ∧ win0_2.index t (2 : Fin 3) = 0
    ∧ win0_3.index t (0 : Fin 3) = t.val / 15 ∧ win0_3.index t (1 : Fin 3) = t.val % 15 ∧ win0_3.index t (2 : Fin 3) = 0
    ∧ win0_4.index t (0 : Fin 3) = t.val / 15 ∧ win0_4.index t (1 : Fin 3) = t.val % 15 ∧ win0_4.index t (2 : Fin 3) = 0 :=
  (by decide +kernel : ∀ t : Fin grid0.N, _)

theorem N_eq : cfg0.N = 120 := N_0

theorem point_lt (t : Fin cfg0.N) : t.val < 120 := lt_of_lt_of_eq t.isLt N_eq

/-- The real plane's block at point `t`, at `(u, j, g)`: row `200 (t % 15) + j` of batch `t / 15`. -/
theorem iblk_re_apply (c : Dev nD) (t : Fin cfg0.N) (u : Fin 1) (j : Fin 200) (g : Fin 481) :
    (iblk m c 0 t : Vec Ideal S1x200x481 .f32) (ix3 u j g)
      = sigOf m c (ix4 ⟨t.val / 15, by have := point_lt t; omega⟩
          ⟨200 * (t.val % 15) + j.val, by omega⟩ g (0 : Fin 2)) := by
  obtain ⟨e0, e1, e2, -⟩ := idx_facts t
  rw [← V_re_apply]
  unfold iblk
  rw [View.read_apply]
  show V m c main_v1 _ = V m c main_v1 _
  congr 1
  funext a
  apply Fin.ext
  match a with
  | ⟨0, _⟩ => show win0_0.index t (0 : Fin 3) * 1 + 1 * u.val = t.val / 15; rw [e0]; omega
  | ⟨1, _⟩ => show win0_0.index t (1 : Fin 3) * 200 + 1 * j.val = 200 * (t.val % 15) + j.val; rw [e1]; omega
  | ⟨2, _⟩ => show win0_0.index t (2 : Fin 3) * 481 + 1 * g.val = g.val; rw [e2]; omega

/-- The imaginary plane's block at point `t`, at `(u, j, g)`. -/
theorem iblk_im_apply (c : Dev nD) (t : Fin cfg0.N) (u : Fin 1) (j : Fin 200) (g : Fin 481) :
    (iblk m c 1 t : Vec Ideal S1x200x481 .f32) (ix3 u j g)
      = sigOf m c (ix4 ⟨t.val / 15, by have := point_lt t; omega⟩
          ⟨200 * (t.val % 15) + j.val, by omega⟩ g (1 : Fin 2)) := by
  obtain ⟨-, -, -, e0, e1, e2, -⟩ := idx_facts t
  rw [← V_im_apply]
  unfold iblk
  rw [View.read_apply]
  show V m c main_v3 _ = V m c main_v3 _
  congr 1
  funext a
  apply Fin.ext
  match a with
  | ⟨0, _⟩ => show win0_1.index t (0 : Fin 3) * 1 + 1 * u.val = t.val / 15; rw [e0]; omega
  | ⟨1, _⟩ => show win0_1.index t (1 : Fin 3) * 200 + 1 * j.val = 200 * (t.val % 15) + j.val; rw [e1]; omega
  | ⟨2, _⟩ => show win0_1.index t (2 : Fin 3) * 481 + 1 * g.val = g.val; rw [e2]; omega

/-- The taps' block at point `t`, at `(u, j, 96 c + bin)`: component `c` of the taps at that batch, row and bin. -/
theorem iblk_taps_apply (c : Dev nD) (t : Fin cfg0.N) (u : Fin 1) (j : Fin 200) (f : Fin 96) (cc : Fin 10) :
    (iblk m c 2 t : Vec Ideal S1x200x960 .f32) (ix3 u j ⟨96 * cc.val + f.val, by omega⟩)
      = tapsOf m c (ix4 ⟨t.val / 15, by have := point_lt t; omega⟩
          ⟨200 * (t.val % 15) + j.val, by omega⟩ f cc) := by
  obtain ⟨-, -, -, -, -, -, e0, e1, e2, -⟩ := idx_facts t
  rw [← V_taps_apply]
  unfold iblk
  rw [View.read_apply]
  show V m c main_v5 _ = V m c main_v5 _
  congr 1
  funext a
  apply Fin.ext
  match a with
  | ⟨0, _⟩ => show win0_2.index t (0 : Fin 3) * 1 + 1 * u.val = t.val / 15; rw [e0]; omega
  | ⟨1, _⟩ => show win0_2.index t (1 : Fin 3) * 200 + 1 * j.val = 200 * (t.val % 15) + j.val; rw [e1]; omega
  | ⟨2, _⟩ => show win0_2.index t (2 : Fin 3) * 960 + 1 * (96 * cc.val + f.val) = 96 * cc.val + f.val; rw [e2]; omega

end Cert.KernelIdeal.Arrays

end
-- ==== Proof.KernelFinal.lean ====
/-
  The kernel's result. At every grid point the two stored blocks are the filtered signal's two planes on the
  point's rows: the history a point reads is what the point before left, the last four rows of that point's
  blocks, or the zeros the first tile of a batch stores for itself. The blocks tile the two output arrays, so
  after the region they hold the two planes; the host lines after the region lay the planes side by side along
  a new last axis.
-/
import proofs.«150580_j36275293782100_2_alg».proof.Proof.Gen.KernelIdeal.Frame
import proofs.«150580_j36275293782100_2_alg».proof.Proof.KernelPieces
import proofs.«150580_j36275293782100_2_alg».proof.Proof.KernelPoint
import proofs.«150580_j36275293782100_2_alg».proof.Proof.KernelArrays
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Final

open Cert.KernelIdeal Cert.KernelIdeal.Gen Cert.KernelIdeal.Body Cert.KernelIdeal.Pieces Cert.KernelIdeal.Arrays
open Cert.FirSpec Idealize.ShloMosaic.ValueIdx

variable (m : (ℓ : Loc nD τ sig) → Buf (Elt Ideal) ℓ) (ρ : Dev nD → PrngReg)

/-- One plane of the filtered signal, as an array over batch, time and bin. -/
def planeOf (c : Dev nD) (p : Fin 2) : S8x3000x481.Idx → EReal :=
  fun i => plane (sigOf m c) (tapsOf m c) p (i 0) (i 1) (i 2)

theorem plane_congr (x : SigShape.Idx → EReal) (w : TapShape.Idx → EReal) (p : Fin 2) (b b' : Fin 8) (τ τ' : Fin 3000)
    (g g' : Fin 481) (hb : b.val = b'.val) (hτ : τ.val = τ'.val) (hg : g.val = g'.val) :
    plane x w p b τ g = plane x w p b' τ' g' := by
  obtain rfl : b = b' := Fin.ext hb
  obtain rfl : τ = τ' := Fin.ext hτ
  obtain rfl : g = g' := Fin.ext hg
  rfl

theorem sig_congr (x : SigShape.Idx → EReal) (p : Fin 2) (b b' : Fin 8) (τ τ' : Fin 3000) (g : Fin 481)
    (hb : b.val = b'.val) (hτ : τ.val = τ'.val) : x (ix4 b τ g p) = x (ix4 b' τ' g p) := by
  obtain rfl : b = b' := Fin.ext hb
  obtain rfl : τ = τ' := Fin.ext hτ
  rfl

/-! ## What a point leaves -/

/-- The histories after the point at position `n`: the last four rows of its two blocks, whichever case it is. -/
theorem carries (c : Dev nD) (n : ℕ) (hn : n < cfg0.N) :
    (outsAt0 m c n hn).2.2 = (lastRows (iblk m c 0 ⟨n, hn⟩), lastRows' (iblk m c 1 ⟨n, hn⟩)) := by
  by_cases h0 : n % 15 = 0
  · rw [show outsAt0 m c n hn = _ from outsAt0_A m c ⟨n, hn⟩ h0]
    exact Prod.ext
      (first_carry_re (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) ((hcond0_0 ⟨n, hn⟩).mpr h0) (iblk m c 0 ⟨n, hn⟩) (iblk m c 1 ⟨n, hn⟩) (iblk m c 2 ⟨n, hn⟩))
      (first_carry_im (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) ((hcond0_0 ⟨n, hn⟩).mpr h0) (iblk m c 0 ⟨n, hn⟩) (iblk m c 1 ⟨n, hn⟩) (iblk m c 2 ⟨n, hn⟩))
  · rw [show outsAt0 m c n hn = _ from outsAt0_B m c ⟨n, hn⟩ h0]
    exact Prod.ext
      (later_carry_re (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (fun h => h0 ((hcond0_0 ⟨n, hn⟩).mp h)) (iblk m c 0 ⟨n, hn⟩) (iblk m c 1 ⟨n, hn⟩) (iblk m c 2 ⟨n, hn⟩) (outsAt0 m c (n - 1) (Nat.lt_of_le_of_lt (Nat.sub_le _ _) hn)).2.2.1 (outsAt0 m c (n - 1) (Nat.lt_of_le_of_lt (Nat.sub_le _ _) hn)).2.2.2)
      (later_carry_im (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) scM0_1 (Memref.isWhole_whole _) (fun h => h0 ((hcond0_0 ⟨n, hn⟩).mp h)) (iblk m c 0 ⟨n, hn⟩) (iblk m c 1 ⟨n, hn⟩) (iblk m c 2 ⟨n, hn⟩) (outsAt0 m c (n - 1) (Nat.lt_of_le_of_lt (Nat.sub_le _ _) hn)).2.2.1 (outsAt0 m c (n - 1) (Nat.lt_of_le_of_lt (Nat.sub_le _ _) hn)).2.2.2)

/-- The real plane's history a point reads: zeros in the first tile of a batch, else the rows the point before left. -/
def carriedRe (c : Dev nD) (t : Fin cfg0.N) : Vec Ideal S4x96 .f32 :=
  if t.val % 15 = 0 then zeroRows (F := Ideal)
  else lastRows (iblk m c 0 ⟨t.val - 1, Nat.lt_of_le_of_lt (Nat.sub_le _ _) t.isLt⟩)

/-- The imaginary plane's history a point reads. -/
def carriedIm (c : Dev nD) (t : Fin cfg0.N) : Vec Ideal S4x96 .f32 :=
  if t.val % 15 = 0 then zeroRows' (F := Ideal)
  else lastRows' (iblk m c 1 ⟨t.val - 1, Nat.lt_of_le_of_lt (Nat.sub_le _ _) t.isLt⟩)

/-- The two output blocks after point `t`: the body's functions of the point's blocks and the histories it reads. -/
theorem outs (c : Dev nD) (t : Fin cfg0.N) :
    (outsAt0 m c t.val t.isLt).1 = outRe (iblk m c 0 t) (iblk m c 1 t) (iblk m c 2 t) (carriedRe m c t) (carriedIm m c t)
    ∧ (outsAt0 m c t.val t.isLt).2.1 = outIm (iblk m c 0 t) (iblk m c 1 t) (iblk m c 2 t) (carriedRe m c t) (carriedIm m c t) := by
  by_cases h0 : t.val % 15 = 0
  · have e1 : carriedRe m c t = zeroRows (F := Ideal) := if_pos h0
    have e2 : carriedIm m c t = zeroRows' (F := Ideal) := if_pos h0
    rw [e1, e2, outsAt0_A m c t h0]
    dsimp only
    refine ⟨?_, ?_⟩
    · exact first_re (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
    · exact first_im (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)
  · have hc := carries m c (t.val - 1) (Nat.lt_of_le_of_lt (Nat.sub_le _ _) t.isLt)
    have e1 : carriedRe m c t = lastRows (iblk m c 0 ⟨t.val - 1, Nat.lt_of_le_of_lt (Nat.sub_le _ _) t.isLt⟩) := if_neg h0
    have e2 : carriedIm m c t = lastRows' (iblk m c 1 ⟨t.val - 1, Nat.lt_of_le_of_lt (Nat.sub_le _ _) t.isLt⟩) := if_neg h0
    have c1 : (outsAt0 m c (t.val - 1) (Nat.lt_of_le_of_lt (Nat.sub_le _ _) t.isLt)).2.2.1 = lastRows (iblk m c 0 ⟨t.val - 1, Nat.lt_of_le_of_lt (Nat.sub_le _ _) t.isLt⟩) :=
      congrArg Prod.fst hc
    have c2 : (outsAt0 m c (t.val - 1) (Nat.lt_of_le_of_lt (Nat.sub_le _ _) t.isLt)).2.2.2 = lastRows' (iblk m c 1 ⟨t.val - 1, Nat.lt_of_le_of_lt (Nat.sub_le _ _) t.isLt⟩) :=
      congrArg Prod.snd hc
    rw [e1, e2, ← c1, ← c2, outsAt0_B m c t h0]
    dsimp only
    refine ⟨?_, ?_⟩
    · exact later_re (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
    · exact later_im (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At point `t` the body's loads are the blocks of batch `t / 15`, time tile `t % 15`, and the histories it reads
    are the four rows before the tile (zeros for the first tile). -/
theorem atPoint (c : Dev nD) (t : Fin cfg0.N) :
    AtPoint (sigOf m c) (tapsOf m c) ⟨t.val / 15, by have := point_lt t; omega⟩ ⟨t.val % 15, by omega⟩
      (iblk m c 0 t) (iblk m c 1 t) (iblk m c 2 t) (carriedRe m c t) (carriedIm m c t) where
  re := fun j g => iblk_re_apply m c t 0 j g
  im := fun j g => iblk_im_apply m c t 0 j g
  taps := fun j f cc => iblk_taps_apply m c t 0 j f cc
  carryRe := fun r f => by
    have ht := point_lt t
    have hr := r.isLt
    unfold carriedRe
    by_cases h0 : t.val % 15 = 0
    · rw [if_pos h0, dif_pos (show ((⟨t.val % 15, by omega⟩ : Fin 15) : ℕ) = 0 from h0)]
      exact zeroRows_apply _
    · rw [if_neg h0, dif_neg (show ¬ ((⟨t.val % 15, by omega⟩ : Fin 15) : ℕ) = 0 from h0), lastRows_apply, iblk_re_apply]
      exact sig_congr _ _ _ _ _ _ _
        (by show (t.val - 1) / 15 = t.val / 15; omega)
        (by show 200 * ((t.val - 1) % 15) + (196 + r.val) = 200 * (t.val % 15) - 4 + r.val; omega)
  carryIm := fun r f => by
    have ht := point_lt t
    have hr := r.isLt
    unfold carriedIm
    by_cases h0 : t.val % 15 = 0
    · rw [if_pos h0, dif_pos (show ((⟨t.val % 15, by omega⟩ : Fin 15) : ℕ) = 0 from h0)]
      exact zeroRows'_apply _
    · rw [if_neg h0, dif_neg (show ¬ ((⟨t.val % 15, by omega⟩ : Fin 15) : ℕ) = 0 from h0), lastRows'_apply, iblk_im_apply]
      exact sig_congr _ _ _ _ _ _ _
        (by show (t.val - 1) / 15 = t.val / 15; omega)
        (by show 200 * ((t.val - 1) % 15) + (196 + r.val) = 200 * (t.val % 15) - 4 + r.val; omega)

/-! ## From blocks to the two arrays -/

/-- The real plane's stored block at point `t`, entry by entry: the filtered signal's plane on the point's rows. -/
theorem block_re (c : Dev nD) (t : Fin cfg0.N) (y : S1x200x481.Idx) :
    outRe (F := Ideal) (iblk m c 0 t) (iblk m c 1 t) (iblk m c 2 t) (carriedRe m c t) (carriedIm m c t) y
      = planeOf m c (0 : Fin 2) (ix3 (⟨t.val / 15, by have := point_lt t; omega⟩ : Fin 8)
          (⟨200 * (t.val % 15) + (y 1).val, by have h1 : (y 1).val < 200 := (y 1).isLt; omega⟩ : Fin 3000) (y 2)) := by
  obtain ⟨u, j, g, rfl⟩ : ∃ (u : Fin 1) (j : Fin 200) (g : Fin 481), y = ix3 u j g := ⟨y 0, y 1, y 2, eq_ix3 y⟩
  exact (atPoint m c t).outRe_eq u j g

/-- What point `t` writes back to the real plane's array is block `t` of the filtered signal's real plane. -/
theorem flushed_re (c : Dev nD) (t : Fin cfg0.N) :
    (dats m 0 c).flushed 3 t = ((cfg0.win 3).blk t).view.read (Elt Ideal) (planeOf m c (0 : Fin 2)) := by
  obtain ⟨-, -, -, -, -, -, -, -, -, e0, e1, e2, -⟩ := idx_facts t
  have ht := point_lt t
  show (cfg0.win 3).cut (grid0.coords t) ((dats m 0 c).after 3 t) = _
  rw [after0_3, (outs m c t).1]
  funext y
  show outRe (F := Ideal) (iblk m c 0 t) (iblk m c 1 t) (iblk m c 2 t) (carriedRe m c t) (carriedIm m c t) y
    = planeOf m c (0 : Fin 2) (((cfg0.win 3).blk t).view.emb y)
  refine (block_re m c t y).trans (congrArg (planeOf m c (0 : Fin 2)) (funext fun a => Fin.ext ?_))
  have y0 : (y 0).val < 1 := (y 0).isLt
  have y1 : (y 1).val < 200 := (y 1).isLt
  have y2 : (y 2).val < 481 := (y 2).isLt
  match a with
  | ⟨0, _⟩ => show t.val / 15 = win0_3.index t (0 : Fin 3) * 1 + 1 * (y 0).val; rw [e0]; omega
  | ⟨1, _⟩ => show 200 * (t.val % 15) + (y 1).val = win0_3.index t (1 : Fin 3) * 200 + 1 * (y 1).val; rw [e1]; omega
  | ⟨2, _⟩ => show (y 2).val = win0_3.index t (2 : Fin 3) * 481 + 1 * (y 2).val; rw [e2]; omega

/-- An index of the array is in point `t`'s block iff each coordinate is in the block's range on its axis. -/
theorem mem_blk_re (t : Fin cfg0.N) (i : S8x3000x481.Idx) :
    i ∈ ((cfg0.win 3).blk t).view.set ↔ ∀ a : Fin 3, win0_3.index t a * S1x200x481.size a ≤ (i a).val
      ∧ (i a).val < win0_3.index t a * S1x200x481.size a + S1x200x481.size a := by
  show i ∈ ((View.whole main_v6_0).slice (win0_3.rect t)).set ↔ _
  rw [View.set_slice_whole, Rect.mem_set_unit]
  exact Iff.rfl

/-- Row `r` of batch `b` is in the block of point `15 b + r / 200`: the blocks tile the array. -/
theorem cover_re (i : S8x3000x481.Idx) :
    ∃ t : Fin cfg0.N, (cfg0.win 3).flush t = true ∧ i ∈ ((cfg0.win 3).blk t).view.set := by
  have h0 : (i 0).val < 8 := (i 0).isLt
  have h1 : (i 1).val < 3000 := (i 1).isLt
  have h2 : (i 2).val < 481 := (i 2).isLt
  have hN : 15 * (i 0).val + (i 1).val / 200 < cfg0.N := by rw [N_eq]; omega
  obtain ⟨-, -, -, -, -, -, -, -, -, e0, e1, e2, -⟩ := idx_facts ⟨15 * (i 0).val + (i 1).val / 200, hN⟩
  refine ⟨⟨15 * (i 0).val + (i 1).val / 200, hN⟩, flush0_3 _, ?_⟩
  rw [mem_blk_re]
  intro a
  match a with
  | ⟨0, _⟩ =>
    show win0_3.index _ (0 : Fin 3) * 1 ≤ (i 0).val ∧ (i 0).val < win0_3.index _ (0 : Fin 3) * 1 + 1
    rw [e0]; show (15 * (i 0).val + (i 1).val / 200) / 15 * 1 ≤ (i 0).val ∧ (i 0).val < (15 * (i 0).val + (i 1).val / 200) / 15 * 1 + 1
    omega
  | ⟨1, _⟩ =>
    show win0_3.index _ (1 : Fin 3) * 200 ≤ (i 1).val ∧ (i 1).val < win0_3.index _ (1 : Fin 3) * 200 + 200
    rw [e1]; show (15 * (i 0).val + (i 1).val / 200) % 15 * 200 ≤ (i 1).val ∧ (i 1).val < (15 * (i 0).val + (i 1).val / 200) % 15 * 200 + 200
    omega
  | ⟨2, _⟩ =>
    show win0_3.index _ (2 : Fin 3) * 481 ≤ (i 2).val ∧ (i 2).val < win0_3.index _ (2 : Fin 3) * 481 + 481
    rw [e2]; omega

/-- The real plane's array after the region: the filtered signal's real plane. -/
theorem final_re (c : Dev nD) : (dats m 0 c).arrAt 3 cfg0.N = planeOf m c (0 : Fin 2) :=
  (dats m 0 c).arrAt_eq_of_cover 3 (planeOf m c (0 : Fin 2)) (fun t _ => flushed_re m c t) cover_re

/-- The imaginary plane's stored block at point `t`, entry by entry: the filtered signal's plane on the point's rows. -/
theorem block_im (c : Dev nD) (t : Fin cfg0.N) (y : S1x200x481.Idx) :
    outIm (F := Ideal) (iblk m c 0 t) (iblk m c 1 t) (iblk m c 2 t) (carriedRe m c t) (carriedIm m c t) y
      = planeOf m c (1 : Fin 2) (ix3 (⟨t.val / 15, by have := point_lt t; omega⟩ : Fin 8)
          (⟨200 * (t.val % 15) + (y 1).val, by have h1 : (y 1).val < 200 := (y 1).isLt; omega⟩ : Fin 3000) (y 2)) := by
  obtain ⟨u, j, g, rfl⟩ : ∃ (u : Fin 1) (j : Fin 200) (g : Fin 481), y = ix3 u j g := ⟨y 0, y 1, y 2, eq_ix3 y⟩
  exact (atPoint m c t).outIm_eq u j g

/-- What point `t` writes back to the imaginary plane's array is block `t` of the filtered signal's imaginary plane. -/
theorem flushed_im (c : Dev nD) (t : Fin cfg0.N) :
    (dats m 0 c).flushed 4 t = ((cfg0.win 4).blk t).view.read (Elt Ideal) (planeOf m c (1 : Fin 2)) := by
  obtain ⟨-, -, -, -, -, -, -, -, -, -, -, -, e0, e1, e2⟩ := idx_facts t
  have ht := point_lt t
  show (cfg0.win 4).cut (grid0.coords t) ((dats m 0 c).after 4 t) = _
  rw [after0_4, (outs m c t).2]
  funext y
  show outIm (F := Ideal) (iblk m c 0 t) (iblk m c 1 t) (iblk m c 2 t) (carriedRe m c t) (carriedIm m c t) y
    = planeOf m c (1 : Fin 2) (((cfg0.win 4).blk t).view.emb y)
  refine (block_im m c t y).trans (congrArg (planeOf m c (1 : Fin 2)) (funext fun a => Fin.ext ?_))
  have y0 : (y 0).val < 1 := (y 0).isLt
  have y1 : (y 1).val < 200 := (y 1).isLt
  have y2 : (y 2).val < 481 := (y 2).isLt
  match a with
  | ⟨0, _⟩ => show t.val / 15 = win0_4.index t (0 : Fin 3) * 1 + 1 * (y 0).val; rw [e0]; omega
  | ⟨1, _⟩ => show 200 * (t.val % 15) + (y 1).val = win0_4.index t (1 : Fin 3) * 200 + 1 * (y 1).val; rw [e1]; omega
  | ⟨2, _⟩ => show (y 2).val = win0_4.index t (2 : Fin 3) * 481 + 1 * (y 2).val; rw [e2]; omega

/-- An index of the array is in point `t`'s block iff each coordinate is in the block's range on its axis. -/
theorem mem_blk_im (t : Fin cfg0.N) (i : S8x3000x481.Idx) :
    i ∈ ((cfg0.win 4).blk t).view.set ↔ ∀ a : Fin 3, win0_4.index t a * S1x200x481.size a ≤ (i a).val
      ∧ (i a).val < win0_4.index t a * S1x200x481.size a + S1x200x481.size a := by
  show i ∈ ((View.whole main_v6_1).slice (win0_4.rect t)).set ↔ _
  rw [View.set_slice_whole, Rect.mem_set_unit]
  exact Iff.rfl

/-- Row `r` of batch `b` is in the block of point `15 b + r / 200`: the blocks tile the array. -/
theorem cover_im (i : S8x3000x481.Idx) :
    ∃ t : Fin cfg0.N, (cfg0.win 4).flush t = true ∧ i ∈ ((cfg0.win 4).blk t).view.set := by
  have h0 : (i 0).val < 8 := (i 0).isLt
  have h1 : (i 1).val < 3000 := (i 1).isLt
  have h2 : (i 2).val < 481 := (i 2).isLt
  have hN : 15 * (i 0).val + (i 1).val / 200 < cfg0.N := by rw [N_eq]; omega
  obtain ⟨-, -, -, -, -, -, -, -, -, -, -, -, e0, e1, e2⟩ := idx_facts ⟨15 * (i 0).val + (i 1).val / 200, hN⟩
  refine ⟨⟨15 * (i 0).val + (i 1).val / 200, hN⟩, flush0_4 _, ?_⟩
  rw [mem_blk_im]
  intro a
  match a with
  | ⟨0, _⟩ =>
    show win0_4.index _ (0 : Fin 3) * 1 ≤ (i 0).val ∧ (i 0).val < win0_4.index _ (0 : Fin 3) * 1 + 1
    rw [e0]; show (15 * (i 0).val + (i 1).val / 200) / 15 * 1 ≤ (i 0).val ∧ (i 0).val < (15 * (i 0).val + (i 1).val / 200) / 15 * 1 + 1
    omega
  | ⟨1, _⟩ =>
    show win0_4.index _ (1 : Fin 3) * 200 ≤ (i 1).val ∧ (i 1).val < win0_4.index _ (1 : Fin 3) * 200 + 200
    rw [e1]; show (15 * (i 0).val + (i 1).val / 200) % 15 * 200 ≤ (i 1).val ∧ (i 1).val < (15 * (i 0).val + (i 1).val / 200) % 15 * 200 + 200
    omega
  | ⟨2, _⟩ =>
    show win0_4.index _ (2 : Fin 3) * 481 ≤ (i 2).val ∧ (i 2).val < win0_4.index _ (2 : Fin 3) * 481 + 481
    rw [e2]; omega

/-- The imaginary plane's array after the region: the filtered signal's imaginary plane. -/
theorem final_im (c : Dev nD) : (dats m 0 c).arrAt 4 cfg0.N = planeOf m c (1 : Fin 2) :=
  (dats m 0 c).arrAt_eq_of_cover 4 (planeOf m c (1 : Fin 2)) (fun t _ => flushed_im m c t) cover_im

end Cert.KernelIdeal.Final

end
-- ==== Proof.KernelRun.lean ====
/-
  The kernel's run, read: the result array is the two planes of the filtered signal laid side by side along the
  last axis, which is the filtered signal; the two arguments end unchanged.
-/
import proofs.«150580_j36275293782100_2_alg».proof.Proof.KernelFinal

noncomputable section

open Idealize.ShloMosaic Idealize.ShloMosaic.TcCoe Idealize.SL.Sem Idealize.ShloMosaic.StableHlo
open Idealize.ShloMosaic.Pipeline (Dat)

namespace Cert.KernelIdeal.Final

open Cert.KernelIdeal Cert.KernelIdeal.Gen Cert.KernelIdeal.Arrays Cert.FirSpec Idealize.ShloMosaic.ValueIdx

variable (m : (ℓ : Loc nD τ sig) → Buf (Elt Ideal) ℓ) (ρ : Dev nD → PrngReg)

/-- The two planes, each given a last axis of extent one, joined along it. -/
def stacked (c : Dev nD) : S8x3000x481x2.Idx → EReal :=
  concatenate S8x3000x481x2 3
    [⟨S8x3000x481x1, broadcastInDim S8x3000x481x1 ![0, 1, 2] bcast_S8x3000x481_S8x3000x481x1_0_1_2 (planeOf m c (0 : Fin 2))⟩,
     ⟨S8x3000x481x1, broadcastInDim S8x3000x481x1 ![0, 1, 2] bcast_S8x3000x481_S8x3000x481x1_0_1_2 (planeOf m c (1 : Fin 2))⟩]
    concatenates_S8x3000x481x1_S8x3000x481x1_S8x3000x481x2_d3

theorem lifted_apply (c : Dev nD) (p : Fin 2) (b : Fin 8) (τ : Fin 3000) (g : Fin 481) :
    broadcastInDim S8x3000x481x1 ![0, 1, 2] bcast_S8x3000x481_S8x3000x481x1_0_1_2 (planeOf m c p) (ix4 b τ g (0 : Fin 1))
      = plane (sigOf m c) (tapsOf m c) p b τ g :=
  broadcastInDim_apply _ _ _ (ix4 b τ g (0 : Fin 1)) (ix3 b τ g) (fun a => match a with
    | ⟨0, _⟩ => by show b.val = if (8 : Nat) = 1 then 0 else b.val; rw [if_neg (by decide)]
    | ⟨1, _⟩ => by show τ.val = if (3000 : Nat) = 1 then 0 else τ.val; rw [if_neg (by decide)]
    | ⟨2, _⟩ => by show g.val = if (481 : Nat) = 1 then 0 else g.val; rw [if_neg (by decide)])

/-- The two planes side by side are the filtered signal. -/
theorem stacked_eq (c : Dev nD) : stacked m c = result (sigOf m c) (tapsOf m c) := by
  funext i
  obtain ⟨b, τ, g, p, rfl⟩ : ∃ (b : Fin 8) (τ : Fin 3000) (g : Fin 481) (p : Fin 2), i = ix4 b τ g p :=
    ⟨i 0, i 1, i 2, i 3, eq_ix4 i⟩
  unfold stacked
  have hp := p.isLt
  by_cases h : p.val = 0
  · obtain rfl : p = 0 := Fin.ext h
    refine (concatenate_pair_apply_left (t := S8x3000x481x2) (s₁ := S8x3000x481x1) (s₂ := S8x3000x481x1) (3 : Fin 4)
      _ _ _ (ix4 b τ g (0 : Fin 2)) rfl (ix4 b τ g (0 : Fin 1))
      (fun a => match a with | ⟨0, _⟩ => rfl | ⟨1, _⟩ => rfl | ⟨2, _⟩ => rfl | ⟨3, _⟩ => rfl)).trans ?_
    exact lifted_apply m c 0 b τ g
  · obtain rfl : p = 1 := Fin.ext (by show p.val = 1; omega)
    refine (concatenate_pair_apply_right (t := S8x3000x481x2) (s₁ := S8x3000x481x1) (s₂ := S8x3000x481x1) (3 : Fin 4)
      _ _ _ (ix4 b τ g (1 : Fin 2)) rfl rfl (ix4 b τ g (0 : Fin 1))
      (fun a ha => match a, ha with
        | ⟨0, _⟩, _ => rfl | ⟨1, _⟩, _ => rfl | ⟨2, _⟩, _ => rfl | ⟨3, _⟩, ha => absurd rfl ha) rfl).trans ?_
    exact lifted_apply m c 1 b τ g

/-- The host lines after the region leave the two planes side by side in the result array. -/
theorem tail_eq (c : Dev nD) :
    Pipeline.afterTail₀ cfgs (dats m) 0 (V0 m) [hostOps1] c main_v9 = stacked m c := by
  unfold Pipeline.afterTail₀
  show StableHlo.after hostOps1 _ (Proc.devRef .tc main_v9) = _
  after_results
  have e3 : Pipeline.withArrays (cfgs 0).spec c (V0 m c) (fun w => (dats m 0 c).arrAt w (cfgs 0).N)
      (Proc.devRef .tc main_v6_0) = planeOf m c (0 : Fin 2) :=
    (Pipeline.withArrays_arr spec0 launch0.win.arr_inj c (V0 m c) (fun w => (dats m 0 c).arrAt w cfg0.N) 3).trans
      (final_re m c)
  have e4 : Pipeline.withArrays (cfgs 0).spec c (V0 m c) (fun w => (dats m 0 c).arrAt w (cfgs 0).N)
      (Proc.devRef .tc main_v6_1) = planeOf m c (1 : Fin 2) :=
    (Pipeline.withArrays_arr spec0 launch0.win.arr_inj c (V0 m c) (fun w => (dats m 0 c).arrAt w cfg0.N) 4).trans
      (final_im m c)
  rw [e3, e4]
  rfl

/-- The run, read: every weakly fair execution ends with the filtered signal of the arguments in the result array
    and the arguments unchanged. -/
theorem run : θ_run defs (onTc (τ := τ) (main (F := Ideal))) ⟨m, fun _ => 0, ρ⟩ fun r => ∀ c : Dev nD,
      r.2.mem ((c.tc : Thread nD τ).loc main_v9)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans
        ((tail_eq m c).trans (stacked_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.lean ====
/-
  A five-tap causal complex filter along time over the first 96 frequency bins of a complex spectrogram
  (`spec[b, τ, f, ·]` = real and imaginary part; taps `coef[b, τ, f, ·]`, five real parts then five imaginary
  parts), the other bins passed through: the kernel against the reference, over the extended reals.

  Both programs compute, for `f < 96`,
      out[b, τ, f] = Σ_{k < 5} x[b, τ + k - 4, f] · c_k[b, τ, f]        (complex product; x = 0 before time 0)
  and `out = spec` for `f ≥ 96`.
  The reference pads four zero rows in front along time, stacks the five shifted slices, multiplies, sums over
  the stack, and writes the two planes back by two scatters. The kernel walks the time axis in tiles of 200
  rows per batch, keeps the previous tile's last four rows in a scratch (zeros for a batch's first tile), and
  adds the taps' products up one after the other, starting from zero.
  The two sums differ only in how the ten products per output are grouped and ordered:
  `((((0 + a₀) - c₀) + a₁) - c₁) …` against `0 + Σ_k (a_k - c_k)`. On the extended reals addition is associative
  and commutative and `x - y = x + (-y)`, so they are equal whatever the entries are: no finiteness is used.

  The modules: FirSpec (the filtered signal as one function of the two arrays, and the two sum laws),
  LibScatterSet (a scatter that keeps the update, read at an index), RefStages / RefScatter / RefIsSpec (the
  reference is that function), KernelBody / KernelPoint (the body's two stored blocks at one grid point),
  KernelPieces / KernelArrays / KernelFinal / KernelRun (the kernel's result array is that function).
-/
import proofs.«150580_j36275293782100_2_alg».proof.Defs
import proofs.«150580_j36275293782100_2_alg».proof.Proof.Gen.Kernel
import proofs.«150580_j36275293782100_2_alg».proof.Proof.Gen.Kernel.Skeleton
import proofs.«150580_j36275293782100_2_alg».proof.Proof.Gen.Kernel.Launch
import proofs.«150580_j36275293782100_2_alg».proof.Proof.Gen.Kernel.Points
import proofs.«150580_j36275293782100_2_alg».proof.Proof.Gen.Kernel.Frame
import proofs.«150580_j36275293782100_2_alg».proof.Proof.Gen.KernelIdeal
import proofs.«150580_j36275293782100_2_alg».proof.Proof.Gen.KernelIdeal.Skeleton
import proofs.«150580_j36275293782100_2_alg».proof.Proof.Gen.KernelIdeal.Launch
import proofs.«150580_j36275293782100_2_alg».proof.Proof.Gen.KernelIdeal.Points
import proofs.«150580_j36275293782100_2_alg».proof.Proof.Gen.KernelIdeal.Frame
import proofs.«150580_j36275293782100_2_alg».proof.Proof.Gen.ReferenceIdeal
import proofs.«150580_j36275293782100_2_alg».proof.Proof.Gen.Pre_finite_inputs
import proofs.«150580_j36275293782100_2_alg».proof.Proof.Gen.ReferenceIdeal.Run
import proofs.«150580_j36275293782100_2_alg».proof.Proof.Gen.ReferenceIdeal.Read
import proofs.«150580_j36275293782100_2_alg».proof.Proof.RefIsSpec
import proofs.«150580_j36275293782100_2_alg».proof.Proof.KernelRun
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the filtered signal of the arguments in their result arrays. -/
theorem algebraic : Cert.algebraic_KernelIdeal_ReferenceIdeal := by
  intro m ρ m' ρ' _ hagree
  refine ⟨fun c => Cert.FirSpec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
